-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v0)) (v3 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v0) = v2 c
          ∧ r.2.mem ((c.tc : Thread Cert.KernelIdeal.nD Cert.KernelIdeal.τ).loc Cert.KernelIdeal.main_v11_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S512x100000 : Shape := ⟨2, ![512, 100000]⟩
abbrev S256x1 : Shape := ⟨2, ![256, 1]⟩
abbrev S256 : Shape := ⟨1, ![256]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x100000 : S_.BroadcastsInDim S512x100000 (![] : Fin 0 → Fin S512x100000.rank)
  reducesTo_S512x100000_S_d0_1 : S512x100000.ReducesTo [0, 1] S_
  bcast_S_S256x1 : S_.BroadcastsInDim S256x1 (![] : Fin 0 → Fin S256x1.rank)
  reducesTo_S256x1_S_d0_1 : S256x1.ReducesTo [0, 1] S_

variable [Facts]

def fn {F : FTy → Type} [FloatOps F] (main_arg0 : FVec F S256x512 .f32) (main_arg1 : FVec F S512x100000 .f32) (main_arg2 : FVec F S256x1 .f32) (main_arg3 : IVec S256 32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x100000 .f32 := Host.absf main_arg1
  let main_cst_0 : FVec F S_ .f32 := constant S_ .f32 0x7F800000#32
  let main_v5 : FVec F S512x100000 .f32 := broadcastInDim S512x100000 ![] bcast_S_S512x100000 main_cst_0
  let main_v6 : IVec S512x100000 1 := cmpf .olt main_v4 main_v5
  let main_c_1 : IVec S_ 1 := constantI S_ 1 1#1
  let main_v7 : IVec S_ 1 := (fun x v => Host.reduce IntOp.andi x v reducesTo_S512x100000_S_d0_1 h_S_) main_v6 main_c_1
  let main_v8 : IVec S_ 1 := andi main_v3 main_v7
  let main_v9 : FVec F S256x1 .f32 := Host.absf main_arg2
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  main_v13
-- ==== Kernel.lean ====
abbrev S256x512 : Shape := ⟨2, ![256, 512]⟩
abbrev S512x100000 : Shape := ⟨2, ![512, 100000]⟩
abbrev S256x1 : Shape := ⟨2, ![256, 1]⟩
abbrev S256 : Shape := ⟨1, ![256]⟩
abbrev S_ : Shape := ⟨0, ![]⟩
abbrev S256x100000 : Shape := ⟨2, ![256, 100000]⟩
abbrev S512x4096 : Shape := ⟨2, ![512, 4096]⟩
abbrev S256x4096 : Shape := ⟨2, ![256, 4096]⟩
abbrev S4096 : Shape := ⟨1, ![4096]⟩
abbrev S1x4096 : Shape := ⟨2, ![1, 4096]⟩

abbrev nBuf : Space → Nat
  | .hbm => 32
  | .vmem => 11
  | .smem => 0
  | _ => 0

abbrev bufTy : (tb : Table) → Fin (tcTables nBuf tb) → BufTy
  | .hbm, ⟨0, _⟩ => ⟨S256x512, .f32⟩
  | .hbm, ⟨1, _⟩ => ⟨S512x100000, .f32⟩
  | .hbm, ⟨2, _⟩ => ⟨S256x1, .f32⟩
  | .hbm, ⟨3, _⟩ => ⟨S256, .i32⟩
  | .hbm, ⟨4, _⟩ => ⟨S256x512, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x512, .f32⟩
  | .hbm, ⟨13, _⟩ => ⟨S256x512, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S256x1, .f32⟩
  | .hbm, ⟨24, _⟩ => ⟨S256x1, .f32⟩
  | .hbm, ⟨25, _⟩ => ⟨S_, .f32⟩
  | .hbm, ⟨26, _⟩ => ⟨S256x1, .f32⟩
  | .hbm, ⟨27, _⟩ => ⟨S256x1, .f32⟩
  | .hbm, ⟨28, _⟩ => ⟨S256x1, .i32⟩
  | .hbm, ⟨29, _⟩ => ⟨S256x100000, .f32⟩
  | .hbm, ⟨30, _⟩ => ⟨S256x100000, .f32⟩
  | .hbm, ⟨31, _⟩ => ⟨S256x100000, .f32⟩
  | .local _ .vmem, ⟨0, _⟩ => ⟨S256x512, .f32⟩
  | .local _ .vmem, ⟨1, _⟩ => ⟨S512x4096, .f32⟩
  | .local _ .vmem, ⟨2, _⟩ => ⟨S512x4096, .f32⟩
  | .local _ .vmem, ⟨3, _⟩ => ⟨S256x1, .i32⟩
  | .local _ .vmem, ⟨4, _⟩ => ⟨S256x1, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_cst_3 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev main_v11_2 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S256x512_S256_d1 : S256x512.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  shapeCasts_S256_S256x1 : S256.ShapeCasts S256x1
  inb_S512x4096_S512x4096_0_0 : ∀ a, (![0, 0] : Fin 2 → Nat) a + S512x4096.size a ≤ S512x4096.size a
  h_S512x4096 : 0 < S512x4096.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S512x4096_S4096 : S512x4096.Reduces [0] S4096
  shapeCasts_S4096_S1x4096 : S4096.ShapeCasts S1x4096
  broadcasts_S1x4096_S256x4096 : S1x4096.Broadcasts S256x4096
  iota_S1x4096_d1_w32 : S1x4096.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  natLt_1_32 : 1 < 32
  inb_S256x4096_S256x4096_0_0 : ∀ a, (![0, 0] : Fin 2 → Nat) a + S256x4096.size a ≤ S256x4096.size a
  h_S256x4096 : 0 < S256x4096.numel
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x512.size a
  hwx0_0 : ∀ i : grid0.Coords, EltTy.bits .f32 = 32 ∨ (Rect.block (s := S256x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x4096.size a < S512x100000.size a
  hwx0_1 : ∀ i : grid0.Coords, EltTy.bits .f32 = 32 ∨ (Rect.unit (s := S512x100000) (fun a => cc0_transform_1 i a * S512x4096.size a) (fun a => (Pipeline.Clip.of (cc0_transform_1 i a) (S512x4096.size a) (S512x100000.size a)).extent (S512x4096.size a)) fun a => Pipeline.Clip.inb (Pipeline.Clip.ok_of (hstart0_1 i a))).WholeWords (EltTy.packing .f32)
  hwxs0_1 : ∀ i : grid0.Coords, EltTy.bits .f32 = 32 ∨ (Rect.unit (s := S512x4096) (fun _ => 0) (fun a => (Pipeline.Clip.of (cc0_transform_1 i a) (S512x4096.size a) (S512x100000.size a)).extent (S512x4096.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .i32 = 32 ∨ (Rect.block (s := S256x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S256x4096.size a < S256x100000.size a
  hwx0_4 : ∀ i : grid0.Coords, EltTy.bits .f32 = 32 ∨ (Rect.unit (s := S256x100000) (fun a => cc0_transform_4 i a * S256x4096.size a) (fun a => (Pipeline.Clip.of (cc0_transform_4 i a) (S256x4096.size a) (S256x100000.size a)).extent (S256x4096.size a)) fun a => Pipeline.Clip.inb (Pipeline.Clip.ok_of (hstart0_4 i a))).WholeWords (EltTy.packing .f32)
  hwxs0_4 : ∀ i : grid0.Coords, EltTy.bits .f32 = 32 ∨ (Rect.unit (s := S256x4096) (fun _ => 0) (fun a => (Pipeline.Clip.of (cc0_transform_4 i a) (S256x4096.size a) (S256x100000.size a)).extent (S256x4096.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S256x4096.size a < S256x100000.size a
  hwx0_5 : ∀ i : grid0.Coords, EltTy.bits .f32 = 32 ∨ (Rect.unit (s := S256x100000) (fun a => cc0_transform_5 i a * S256x4096.size a) (fun a => (Pipeline.Clip.of (cc0_transform_5 i a) (S256x4096.size a) (S256x100000.size a)).extent (S256x4096.size a)) fun a => Pipeline.Clip.inb (Pipeline.Clip.ok_of (hstart0_5 i a))).WholeWords (EltTy.packing .f32)
  hwxs0_5 : ∀ i : grid0.Coords, EltTy.bits .f32 = 32 ∨ (Rect.unit (s := S256x4096) (fun _ => 0) (fun a => (Pipeline.Clip.of (cc0_transform_5 i a) (S256x4096.size a) (S256x100000.size a)).extent (S256x4096.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S256x4096.size a < S256x100000.size a
  hwx0_6 : ∀ i : grid0.Coords, EltTy.bits .f32 = 32 ∨ (Rect.unit (s := S256x100000) (fun a => cc0_transform_6 i a * S256x4096.size a) (fun a => (Pipeline.Clip.of (cc0_transform_6 i a) (S256x4096.size a) (S256x100000.size a)).extent (S256x4096.size a)) fun a => Pipeline.Clip.inb (Pipeline.Clip.ok_of (hstart0_6 i a))).WholeWords (EltTy.packing .f32)
  hwxs0_6 : ∀ i : grid0.Coords, EltTy.bits .f32 = 32 ∨ (Rect.unit (s := S256x4096) (fun _ => 0) (fun a => (Pipeline.Clip.of (cc0_transform_6 i a) (S256x4096.size a) (S256x100000.size a)).extent (S256x4096.size a)) fun a => (Nat.zero_add _).trans_le (Pipeline.Clip.extent_le (Pipeline.Clip.ok_of (hstart0_6 i a)))).WholeWords (EltTy.packing .f32)

variable [Facts₀]

def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_v4) S256x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S512x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v10) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v11_0) S256x4096.size cc0_transform_4 reads0_4 true false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v11_1) S256x4096.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v11_2) S256x4096.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S256x512 : Shape := ⟨2, ![256, 512]⟩
abbrev S512x100000 : Shape := ⟨2, ![512, 100000]⟩
abbrev S256x1 : Shape := ⟨2, ![256, 1]⟩
abbrev S256 : Shape := ⟨1, ![256]⟩
abbrev S_ : Shape := ⟨0, ![]⟩
abbrev S100000 : Shape := ⟨1, ![100000]⟩
abbrev S1x100000 : Shape := ⟨2, ![1, 100000]⟩
abbrev S256x100000 : Shape := ⟨2, ![256, 100000]⟩

abbrev nBuf : Space → Nat
  | .hbm => 62
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x100000, .f32⟩
  | .hbm, ⟨2, _⟩ => ⟨S256x1, .f32⟩
  | .hbm, ⟨3, _⟩ => ⟨S256, .i32⟩
  | .hbm, ⟨4, _⟩ => ⟨S256x512, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x512, .f32⟩
  | .hbm, ⟨13, _⟩ => ⟨S256x512, .f32⟩
  | .hbm, ⟨14, _⟩ => ⟨S512x100000, .f32⟩
  | .hbm, ⟨15, _⟩ => ⟨S_, .f32⟩
  | .hbm, ⟨16, _⟩ => ⟨S100000, .f32⟩
  | .hbm, ⟨17, _⟩ => ⟨S1x100000, .f32⟩
  | .hbm, ⟨18, _⟩ => ⟨S1x100000, .f32⟩
  | .hbm, ⟨19, _⟩ => ⟨S_, .f32⟩
  | .hbm, ⟨20, _⟩ => ⟨S1x100000, .f32⟩
  | .hbm, ⟨21, _⟩ => ⟨S1x100000, .f32⟩
  | .hbm, ⟨22, _⟩ => ⟨S512x100000, .f32⟩
  | .hbm, ⟨23, _⟩ => ⟨S512x100000, .f32⟩
  | .hbm, ⟨24, _⟩ => ⟨S256x100000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S256x100000, .f32⟩
  | .hbm, ⟨29, _⟩ => ⟨S256x100000, .f32⟩
  | .hbm, ⟨30, _⟩ => ⟨S_, .f32⟩
  | .hbm, ⟨31, _⟩ => ⟨S256x100000, .f32⟩
  | .hbm, ⟨32, _⟩ => ⟨S256x100000, .f32⟩
  | .hbm, ⟨33, _⟩ => ⟨S_, .f32⟩
  | .hbm, ⟨34, _⟩ => ⟨S256x1, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S256x1, .f32⟩
  | .hbm, ⟨43, _⟩ => ⟨S256x1, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S256x1, .i32⟩
  | .hbm, ⟨48, _⟩ => ⟨S1x100000, .i32⟩
  | .hbm, ⟨49, _⟩ => ⟨S256x100000, .i32⟩
  | .hbm, ⟨50, _⟩ => ⟨S256x100000, .i32⟩
  | .hbm, ⟨51, _⟩ => ⟨S256x100000, .i1⟩
  | .hbm, ⟨52, _⟩ => ⟨S256x100000, .f32⟩
  | .hbm, ⟨53, _⟩ => ⟨S_, .f32⟩
  | .hbm, ⟨54, _⟩ => ⟨S256x100000, .f32⟩
  | .hbm, ⟨55, _⟩ => ⟨S256x100000, .f32⟩
  | .hbm, ⟨56, _⟩ => ⟨S256x100000, .f32⟩
  | .hbm, ⟨57, _⟩ => ⟨S256x100000, .f32⟩
  | .hbm, ⟨58, _⟩ => ⟨S256x100000, .f32⟩
  | .hbm, ⟨59, _⟩ => ⟨S_, .f32⟩
  | .hbm, ⟨60, _⟩ => ⟨S256x100000, .f32⟩
  | .hbm, ⟨61, _⟩ => ⟨S256x100000, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_cst_2 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_cst_4 : Ref sig .tc := ⟨.hbm, 36, rfl⟩
abbrev main_v14 : Ref sig .tc := ⟨.hbm, 37, rfl⟩
abbrev main_v15 : Ref sig .tc := ⟨.hbm, 38, rfl⟩
abbrev main_cst_5 : Ref sig .tc := ⟨.hbm, 39, rfl⟩
abbrev main_cst_6 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v16 : Ref sig .tc := ⟨.hbm, 46, rfl⟩
abbrev main_call4_v0 : Ref sig .tc := ⟨.hbm, 47, rfl⟩
abbrev main_call4_v1 : Ref sig .tc := ⟨.hbm, 48, rfl⟩
abbrev main_call4_v2 : Ref sig .tc := ⟨.hbm, 49, rfl⟩
abbrev main_call4_v3 : Ref sig .tc := ⟨.hbm, 50, rfl⟩
abbrev main_call4_v4 : Ref sig .tc := ⟨.hbm, 51, rfl⟩
abbrev main_v17 : Ref sig .tc := ⟨.hbm, 52, rfl⟩
abbrev main_cst_7 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_8 : Ref sig .tc := ⟨.hbm, 59, rfl⟩
abbrev main_v23 : Ref sig .tc := ⟨.hbm, 60, rfl⟩
abbrev main_v24 : Ref sig .tc := ⟨.hbm, 61, rfl⟩

abbrev nD : Nat := 1
abbrev τ : Topo := Topo.v7x

variable {F : FTy → Type} [FloatOps F]

class Facts₀ : Prop where
  reducesTo_S256x512_S256_d1 : S256x512.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  reducesTo_S512x100000_S100000_d0 : S512x100000.ReducesTo [0] S100000
  bcast_S100000_S1x100000_1 : S100000.BroadcastsInDim S1x100000 (![1] : Fin 1 → Fin S1x100000.rank)
  bcast_S_S1x100000 : S_.BroadcastsInDim S1x100000 (![] : Fin 0 → Fin S1x100000.rank)
  bcast_S1x100000_S512x100000_0_1 : S1x100000.BroadcastsInDim S512x100000 (![0, 1] : Fin 2 → Fin S512x100000.rank)
  bcast_S_S256x100000 : S_.BroadcastsInDim S256x100000 (![] : Fin 0 → Fin S256x100000.rank)
  bcast_S256x1_S256x100000_0_1 : S256x1.BroadcastsInDim S256x100000 (![0, 1] : Fin 2 → Fin S256x100000.rank)
  bcast_S1x100000_S256x100000_0_1 : S1x100000.BroadcastsInDim S256x100000 (![0, 1] : Fin 2 → Fin S256x100000.rank)
  dot_S256x512_S512x100000_S256x100000_1_0_0_1_n_n_wf : DotDims.WF S256x512 S512x100000 S256x100000 [1] [0] [0] [1] [] []

variable [Facts₀]

def dot_S256x512_S512x100000_S256x100000_1_0_0_1_n_n : DotDims S256x512 S512x100000 S256x100000 where
  lhsContracting := [1]
  rhsContracting := [0]
  lhsNonContracting := [0]
  rhsNonContracting := [1]
  lhsBatch := []
  rhsBatch := []
  wf := dot_S256x512_S512x100000_S256x100000_1_0_0_1_n_n_wf

class Facts : Prop extends Facts₀ where

variable [Facts]
-- ==== Proof.KernelBody.lean ====
/-
  The kernel body as a Hoare triple, for any float instance: run on seven whole staging buffers — the normalized
  features [256, 512], a weight tile [512, 4096], the labels column [256, 1], the margins column [256, 1] and the three
  result tiles [256, 4096] — it leaves the four inputs as they were and the three result tiles at the body's three
  stored values, each one pure function of what the inputs' buffers hold (the whole-buffer loads read the contents,
  the whole-buffer stores overwrite them).
-/
import proofs.«145052_j16200616640758_2_alg».proof.Proof.Gen.Kernel.Frame
import proofs.«145052_j16200616640758_2_alg».proof.Proof.Gen.Kernel.Skeleton
import Idealize.ShloMosaic.Lib.Pipeline.Frame
import Idealize.ShloMosaic.Lib.Pipeline.Value
import Idealize.ShloMosaic.Lib.Exec.Geometry

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The offset of every access of the body: the buffer's origin. -/
theorem origin2 : (![0, 0] : Fin 2 → Nat) = fun _ => 0 := funext fun a => by fin_cases a <;> rfl

set_option maxHeartbeats 2000000 in
/-- The body on whole staging buffers, the inputs' at contents `x0 … x3` and the results' at anything: it ends with the
    inputs' as they were, the first result tile at the scaled clipped cosines, the second at those less the scaled
    margin on the label's column, the third at the label indicator — the three stored values of the body. -/
theorem sound_kernel (c : Dev nD) (E : Set ℕ) (i : grid0.Coords)
    (arg1 : Memref sig .tc .vmem S256x512 .f32) (harg1 : arg1.IsWhole) (arg2 : Memref sig .tc .vmem S512x4096 .f32) (harg2 : arg2.IsWhole)
    (arg3 : Memref sig .tc .vmem S256x1 .i32) (harg3 : arg3.IsWhole) (arg4 : Memref sig .tc .vmem S256x1 .f32) (harg4 : arg4.IsWhole)
    (arg5 : Memref sig .tc .vmem S256x4096 .f32) (harg5 : arg5.IsWhole) (arg6 : Memref sig .tc .vmem S256x4096 .f32) (harg6 : arg6.IsWhole)
    (arg7 : Memref sig .tc .vmem S256x4096 .f32) (harg7 : arg7.IsWhole)
    (x0 : Vec F S256x512 .f32) (x1 : Vec F S512x4096 .f32) (x2 : Vec F S256x1 .i32) (x3 : Vec F S256x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay2 x1 x0)
            ∗ owns (c : Thread nD τ) arg6 fullShare (k0_pay3 i x1 x0 x2 x3) ∗ owns (c : Thread nD τ) arg7 fullShare (k0_pay1 i x2)) -∗ K ⟨⟩))
      ⊢ wp frame (wpE (defs₀ (F := F)) Variants.none c none) E
          (cc0__elastic_cosface_kernel i arg1 harg1 arg2 harg2 arg3 harg3 arg4 harg4 arg5 harg5 arg6 harg6 arg7 harg7) K := by
  simp only [cc0__elastic_cosface_kernel_eq_skeleton]; unfold cc0__elastic_cosface_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    rw [View.read_writes_eq_canon _ _ _ (fun y => ⟨_, List.mem_singleton_self _, View.mem_set_unit_zero origin2 inb_S256x4096_S256x4096_0_0 y⟩),
      View.canon_unit_zero origin2]
    simp only [View.readAt_eq_ld]
    rw [View.ld_unit_zero (S := S512x4096) origin2, View.ld_unit_zero (S := S256x512) origin2]
  isplitl [H5]
  · iexists _; isplitr
    swap; · iexact H5
    ipureintro
    try dsimp only
    rw [View.read_writes_eq_canon _ _ _ (fun y => ⟨_, List.mem_singleton_self _, View.mem_set_unit_zero origin2 inb_S256x4096_S256x4096_0_0 y⟩),
      View.canon_unit_zero origin2]
    simp only [View.readAt_eq_ld]
    rw [View.ld_unit_zero (S := S512x4096) origin2, View.ld_unit_zero (S := S256x512) origin2,
      View.ld_unit_zero (S := S256x1) origin2, View.ld_unit_zero (S := S256x1) origin2]
  · iexists _; isplitr
    swap; · iexact H6
    ipureintro
    try dsimp only
    rw [View.read_writes_eq_canon _ _ _ (fun y => ⟨_, List.mem_singleton_self _, View.mem_set_unit_zero origin2 inb_S256x4096_S256x4096_0_0 y⟩),
      View.canon_unit_zero origin2]
    simp only [View.readAt_eq_ld]
    rw [View.ld_unit_zero (S := S256x1) origin2]

end Cert.Kernel.Body

end
-- ==== Proof.KernelFrame.lean ====
/-
  The frame of the program, for any float instance: the launch runs the body at each of the 25 grid points, and the
  four argument arrays end as they began.

  What each staging buffer holds after the body at a point: the normalized features, the labels column and the margins
  column are fetched once and stay; the weight tile is fetched at every point, and at the last point only its first
  1696 columns come from the array (the tile overhangs the array's 100000 columns), the rest being whatever the
  buffer held — here named as zero, which nothing reads; the three result tiles hold the body's stores, of which nothing
  is said (the frame does not read them).
-/
import proofs.«145052_j16200616640758_2_alg».proof.Proof.KernelBody
import proofs.«145052_j16200616640758_2_alg».proof.Proof.Gen.Kernel.Frame
import proofs.«145052_j16200616640758_2_alg».proof.Proof.Gen.Kernel.Points
import Idealize.ShloMosaic.Lib.Pipeline.Frame

set_option maxRecDepth 16384

noncomputable section

namespace Cert.Kernel.Frame

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The weight tile at point `t` with its part outside the array named: the columns the fetch reads from the array,
    zero in the columns past the array's end (at the last point; at the others there are none). -/
def ktile (c : Dev nD) (t : Fin cfg0.N) : (cfg0.win 1).block.Idx → Elt F (cfg0.win 1).elt :=
  (cfg0.win 1).fill (cfg0.grid.coords t) (fun _ => Scalar.ofBits .f32 0#32) (iblk m c 1 t)

/-- The result windows: nothing reads what the body leaves in them. -/
def forgets : Fin 7 → Bool := fun w => w.val == 4 || w.val == 5 || w.val == 6

/-- The proof data on core `c`: the arrays as the region finds them; after the body the inputs' buffers at their
    blocks (the weight tile filled out), the results' unnamed; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => ktile m c t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = ktile m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- The resident inputs' buffers hold their blocks at every point. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- The weight tile is fetched at every point: its buffer holds the block's part inside the array, and `d` past it. -/
theorem before0_1 (c : Dev nD) (t : Fin cfg0.N) (d) :
    (dats m 0 c).before 1 t d = (cfg0.win 1).fill (cfg0.grid.coords t) d (iblk m c 1 t) := by
  unfold Dat.before; rw [if_pos (fetch0_1 t)]; rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d)
    ∗ (∃ d, owns (c : Thread nD τ) (st0_6 t) fullShare d))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d)
    ∗ (∃ d, owns (c : Thread nD τ) (st0_6 t) fullShare d))

/-- The body at any point: the inputs' buffers hold their blocks, so the body's triple applies; the invariant and
    the core's tallies pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t)
    ((cfg0.win 1).fill (cfg0.grid.coords t) d1 (iblk m c 1 t)) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]
  · iexists d1
    rw [show (cfg0.win 1).cut (cfg0.grid.coords t) (ktile m c t) = iblk m c 1 t from (cfg0.win 1).cut_fill _ _ _]
    iexact H1
  isplitl [H2]; · iexact H2
  isplitl [H3]; · iexact H3
  isplitl [H4]; · iexists _; iexact H4
  isplitl [H5]; · iexists _; iexact H5
  iexists _; iexact H6

/-- The library's body obligation, at every point (the result windows forgotten). -/
theorem body_obligation (c : Dev nD) : BodyObligationLoose (dats m 0 c) (defs₀ (F := F)) Variants.none () Set.univ forgets := fun t => by
  rw [bigSep_W0, bigSep_W0]
  exact sound_body m c t

/-! ## The run and the frame -/

set_option backward.isDefEq.respectTransparency.types false in
/-- Every weakly fair execution of @main terminates; every input array of the launch ends unchanged, nothing is said
    of the result arrays, and every other unscoped buffer ends as the region found it. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The four argument arrays end as they began: the weight array is an input of the launch, never written; the other
    three are not arrays of the launch at all, and no host operation before it writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      (Eq.mp (congrFun (((dats m 0 c).toRForget forgets).ArrAt_in 1 rfl _) _) ((h c).1 1)).trans ((A_eq m c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel.Frame

end
-- ==== Proof.IdealBody.lean ====
/-
  The kernel body as a Hoare triple, for any float instance: run on seven whole staging buffers — the normalized
  features [256, 512], a weight tile [512, 4096], the labels column [256, 1], the margins column [256, 1] and the three
  result tiles [256, 4096] — it leaves the four inputs as they were and the three result tiles at the body's three
  stored values, each one pure function of what the inputs' buffers hold (the whole-buffer loads read the contents,
  the whole-buffer stores overwrite them).
-/
import proofs.«145052_j16200616640758_2_alg».proof.Proof.Gen.KernelIdeal.Frame
import proofs.«145052_j16200616640758_2_alg».proof.Proof.Gen.KernelIdeal.Skeleton
import Idealize.ShloMosaic.Lib.Pipeline.Frame
import Idealize.ShloMosaic.Lib.Pipeline.Value
import Idealize.ShloMosaic.Lib.Exec.Geometry

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The offset of every access of the body: the buffer's origin. -/
theorem origin2 : (![0, 0] : Fin 2 → Nat) = fun _ => 0 := funext fun a => by fin_cases a <;> rfl

set_option maxHeartbeats 2000000 in
/-- The body on whole staging buffers, the inputs' at contents `x0 … x3` and the results' at anything: it ends with the
    inputs' as they were, the first result tile at the scaled clipped cosines, the second at those less the scaled
    margin on the label's column, the third at the label indicator — the three stored values of the body. -/
theorem sound_kernel (c : Dev nD) (E : Set ℕ) (i : grid0.Coords)
    (arg1 : Memref sig .tc .vmem S256x512 .f32) (harg1 : arg1.IsWhole) (arg2 : Memref sig .tc .vmem S512x4096 .f32) (harg2 : arg2.IsWhole)
    (arg3 : Memref sig .tc .vmem S256x1 .i32) (harg3 : arg3.IsWhole) (arg4 : Memref sig .tc .vmem S256x1 .f32) (harg4 : arg4.IsWhole)
    (arg5 : Memref sig .tc .vmem S256x4096 .f32) (harg5 : arg5.IsWhole) (arg6 : Memref sig .tc .vmem S256x4096 .f32) (harg6 : arg6.IsWhole)
    (arg7 : Memref sig .tc .vmem S256x4096 .f32) (harg7 : arg7.IsWhole)
    (x0 : Vec F S256x512 .f32) (x1 : Vec F S512x4096 .f32) (x2 : Vec F S256x1 .i32) (x3 : Vec F S256x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay2 x1 x0)
            ∗ owns (c : Thread nD τ) arg6 fullShare (k0_pay3 i x1 x0 x2 x3) ∗ owns (c : Thread nD τ) arg7 fullShare (k0_pay1 i x2)) -∗ K ⟨⟩))
      ⊢ wp frame (wpE (defs₀ (F := F)) Variants.none c none) E
          (cc0__elastic_cosface_kernel i arg1 harg1 arg2 harg2 arg3 harg3 arg4 harg4 arg5 harg5 arg6 harg6 arg7 harg7) K := by
  simp only [cc0__elastic_cosface_kernel_eq_skeleton]; unfold cc0__elastic_cosface_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    rw [View.read_writes_eq_canon _ _ _ (fun y => ⟨_, List.mem_singleton_self _, View.mem_set_unit_zero origin2 inb_S256x4096_S256x4096_0_0 y⟩),
      View.canon_unit_zero origin2]
    simp only [View.readAt_eq_ld]
    rw [View.ld_unit_zero (S := S512x4096) origin2, View.ld_unit_zero (S := S256x512) origin2]
  isplitl [H5]
  · iexists _; isplitr
    swap; · iexact H5
    ipureintro
    try dsimp only
    rw [View.read_writes_eq_canon _ _ _ (fun y => ⟨_, List.mem_singleton_self _, View.mem_set_unit_zero origin2 inb_S256x4096_S256x4096_0_0 y⟩),
      View.canon_unit_zero origin2]
    simp only [View.readAt_eq_ld]
    rw [View.ld_unit_zero (S := S512x4096) origin2, View.ld_unit_zero (S := S256x512) origin2,
      View.ld_unit_zero (S := S256x1) origin2, View.ld_unit_zero (S := S256x1) origin2]
  · iexists _; isplitr
    swap; · iexact H6
    ipureintro
    try dsimp only
    rw [View.read_writes_eq_canon _ _ _ (fun y => ⟨_, List.mem_singleton_self _, View.mem_set_unit_zero origin2 inb_S256x4096_S256x4096_0_0 y⟩),
      View.canon_unit_zero origin2]
    simp only [View.readAt_eq_ld]
    rw [View.ld_unit_zero (S := S256x1) origin2]

end Cert.KernelIdeal.Body

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.PayloadAt.lean ====
/-
  The body's three stored tiles read at an entry, over the extended reals. For input tiles x0 (features, [256, 512]),
  x1 (weights, [512, 4096]), x2 (labels column), x3 (margins column) and a grid point with coordinate i:

  * the cosine tile at (p, j) is  clip( (Σ_r x0(p, r) · x1(r, j)) · (1 / max(√(Σ_r x1(r, j)²), ε)) ) · 64;
  * the indicator tile at (p, j) is 1 when the label of row p is the column's number 4096·i + j, else 0;
  * the logit tile at (p, j) is the cosine tile less the indicator times (margin(p) · 64).

  Each entry reads the weight tile along its own column j only: two weight tiles that agree on column j give the
  same entry (`pay2_congr`, `pay3_congr`).
-/
import proofs.«145052_j16200616640758_2_alg».proof.Proof.Gen.KernelIdeal.Skeleton
import proofs.«145052_j16200616640758_2_alg».proof.Proof.LibMatmul
import proofs.«145052_j16200616640758_2_alg».proof.Proof.LibColumns
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.PayloadAt

open Cert.KernelIdeal Cert.KernelIdeal.Gen Idealize.ShloMosaic Idealize.ShloMosaic.ValueIdx

/-- The index a reduction over the rows puts back: column j with row r inserted is (r, j). -/
theorem lift_rows (j : Fin 4096) (r : Fin (S512x4096.size 0)) :
    reduces_S512x4096_S4096.lift (ix1 j) r = ix2 (⟨r.val, r.isLt⟩ : Fin 512) j := by
  funext a; apply Fin.ext
  fin_cases a <;> rfl

/-- The sum of squares down column j of the weight tile. -/
theorem colsq_at (x1 : FVec Ideal S512x4096 .f32) (j : Fin 4096) :
    multiReduction (F := Ideal) .add [0] S4096 (mulf x1 x1) 0x00000000#32 reduces_S512x4096_S4096 (.inl rfl) rfl (ix1 j)
      = ∑ r : Fin 512, x1 (ix2 r j) * x1 (ix2 r j) := by
  refine (Ideal.multiReduction_add_single (mulf x1 x1) 0x00000000#32 reduces_S512x4096_S4096 (.inl rfl) rfl (ix1 j)).trans ?_
  refine Finset.sum_congr rfl fun r _ => ?_
  rw [lift_rows j r]
  rfl

/-- The matrix product of the feature tile and the weight tile at (p, j). -/
theorem raw_at (x1 : FVec Ideal S512x4096 .f32) (x0 : FVec Ideal S256x512 .f32) (p : Fin 256) (j : Fin 4096) :
    matmul (F := Ideal) dot_S256x512_S512x4096_S256x4096_1_0_0_1_n_n (some .fp32) (shapeCast S256x512 x0 shapeCasts_S256x512_S256x512) x1
        (constant S256x4096 .f32 0x00000000#32) (ix2 p j)
      = ∑ r : Fin 512, x0 (ix2 p r) * x1 (ix2 r j) := by
  rw [shapeCast_self]
  exact matmul_zero_ix2 dot_S256x512_S512x4096_S256x4096_1_0_0_1_n_n rfl rfl rfl rfl rfl rfl (some .fp32) x0 x1 p j

/-- The cosine tile at (p, j). -/
theorem pay2_at (x1 : FVec Ideal S512x4096 .f32) (x0 : FVec Ideal S256x512 .f32) (p : Fin 256) (j : Fin 4096) :
    k0_pay2 (F := Ideal) x1 x0 (ix2 p j)
      = min (Scalar.ofBits (F := Ideal) .f32 0x3F7FFFFE#32) (max (Scalar.ofBits (F := Ideal) .f32 0xBF7FFFFE#32)
          ((∑ r : Fin 512, x0 (ix2 p r) * x1 (ix2 r j))
            * Ideal.div (Scalar.ofBits (F := Ideal) .f32 0x3F800000#32)
                (max (Ideal.sqrt (∑ r : Fin 512, x1 (ix2 r j) * x1 (ix2 r j))) (Scalar.ofBits (F := Ideal) .f32 0x2B8CBCCC#32))))
        * Scalar.ofBits (F := Ideal) .f32 0x42800000#32 := by
  unfold k0_pay2
  dsimp only
  simp only [mulf_apply, minimumf_apply, maximumf_apply, broadcast_apply]
  rw [raw_at, broadcastTo_1b_ab_apply]
  simp only [divf_apply, maximumf_apply, broadcast_apply]
  have e : sqrt (shapeCast S1x4096 (multiReduction (F := Ideal) .add [0] S4096 (mulf x1 x1) 0x00000000#32 reduces_S512x4096_S4096 (.inl rfl) rfl)
        shapeCasts_S4096_S1x4096) (ix2 (0 : Fin 1) j) = Ideal.sqrt (∑ r : Fin 512, x1 (ix2 r j) * x1 (ix2 r j)) := by
    show Ideal.sqrt (shapeCast S1x4096 (multiReduction (F := Ideal) .add [0] S4096 (mulf x1 x1) 0x00000000#32 reduces_S512x4096_S4096 (.inl rfl) rfl)
        shapeCasts_S4096_S1x4096 (ix2 (0 : Fin 1) j)) = _
    rw [shapeCast_a_1a_apply, colsq_at]
  rw [e]

/-- Two weight tiles that agree down column j give the same cosine entry in column j. -/
theorem pay2_congr (x1 x1' : FVec Ideal S512x4096 .f32) (x0 : FVec Ideal S256x512 .f32) (z : S256x4096.Idx) (j : Fin 4096)
    (hj : (z 1).val = j.val) (h : ∀ r : Fin 512, x1 (ix2 r j) = x1' (ix2 r j)) :
    k0_pay2 (F := Ideal) x1 x0 z = k0_pay2 (F := Ideal) x1' x0 z := by
  obtain ⟨p, rfl⟩ : ∃ p : Fin 256, z = ix2 p j := ⟨⟨(z 0).val, (z 0).isLt⟩, by
    funext a; apply Fin.ext
    match a with
    | ⟨0, _⟩ => rfl
    | ⟨1, _⟩ => exact hj⟩
  rw [pay2_at, pay2_at]
  simp only [h]

/-- The indicator tile at (p, j): the label of row p compared with the column's number. -/
theorem pay1_at (i : grid0.Coords) (x2 : Vec Ideal S256x1 .i32) (p : Fin 256) (j : Fin 4096) :
    k0_pay1 (F := Ideal) i x2 (ix2 p j)
      = FloatOps.sitofp (F := Ideal) .f32 ((IntOp.cmpi .eq (x2 (ix2 p (0 : Fin 1)))
          (IntOp.addi (Scalar.muli (BitVec.ofNat 32 (i 0).val) 4096#32) (BitVec.ofNat 32 j.val))).setWidth 32) := by
  unfold k0_pay1
  dsimp only
  simp only [sitofp_apply, extui_apply]
  show FloatOps.sitofp (F := Ideal) .f32 ((IntOp.cmpi .eq
      (broadcastTo S256x4096 (shapeCast S256x1 x2 shapeCasts_S256x1_S256x1) broadcasts_S256x1_S256x4096 (ix2 p j))
      (broadcastTo S256x4096 (addi (broadcast S1x4096 (Scalar.muli (BitVec.ofNat 32 (i 0).val) 4096#32)) (iota .tc S1x4096 32 [1] iota_S1x4096_d1_w32))
        broadcasts_S1x4096_S256x4096 (ix2 p j))).setWidth 32) = _
  rw [broadcastTo_a1_ab_apply, broadcastTo_1b_ab_apply, shapeCast_self]
  show FloatOps.sitofp (F := Ideal) .f32 ((IntOp.cmpi .eq (x2 (ix2 p (0 : Fin 1)))
      (IntOp.addi (Scalar.muli (BitVec.ofNat 32 (i 0).val) 4096#32) (iota .tc S1x4096 32 [1] iota_S1x4096_d1_w32 (ix2 (0 : Fin 1) j)))).setWidth 32) = _
  rw [iota_single_apply]

/-- The logit tile at (p, j): the cosine entry less the indicator times the scaled margin of row p. -/
theorem pay3_at (i : grid0.Coords) (x1 : FVec Ideal S512x4096 .f32) (x0 : FVec Ideal S256x512 .f32) (x2 : Vec Ideal S256x1 .i32)
    (x3 : FVec Ideal S256x1 .f32) (p : Fin 256) (j : Fin 4096) :
    k0_pay3 (F := Ideal) i x1 x0 x2 x3 (ix2 p j)
      = k0_pay2 (F := Ideal) x1 x0 (ix2 p j)
        - k0_pay1 (F := Ideal) i x2 (ix2 p j) * (x3 (ix2 p (0 : Fin 1)) * Scalar.ofBits (F := Ideal) .f32 0x42800000#32) := by
  unfold k0_pay3
  simp only [subf_apply, mulf_apply]
  rw [broadcastTo_a1_ab_apply]
  simp only [mulf_apply, broadcast_apply, shapeCast_self]

/-- Two weight tiles that agree down column j give the same logit entry in column j. -/
theorem pay3_congr (i : grid0.Coords) (x1 x1' : FVec Ideal S512x4096 .f32) (x0 : FVec Ideal S256x512 .f32) (x2 : Vec Ideal S256x1 .i32)
    (x3 : FVec Ideal S256x1 .f32) (z : S256x4096.Idx) (j : Fin 4096)
    (hj : (z 1).val = j.val) (h : ∀ r : Fin 512, x1 (ix2 r j) = x1' (ix2 r j)) :
    k0_pay3 (F := Ideal) i x1 x0 x2 x3 z = k0_pay3 (F := Ideal) i x1' x0 x2 x3 z := by
  obtain ⟨p, rfl⟩ : ∃ p : Fin 256, z = ix2 p j := ⟨⟨(z 0).val, (z 0).isLt⟩, by
    funext a; apply Fin.ext
    match a with
    | ⟨0, _⟩ => rfl
    | ⟨1, _⟩ => exact hj⟩
  rw [pay3_at, pay3_at, pay2_congr x1 x1' x0 (ix2 p j) j rfl h]

end Cert.KernelIdeal.PayloadAt

end
-- ==== Proof.IdealRun.lean ====
/-
  The frame of the program, for any float instance: the launch runs the body at each of the 25 grid points, and the
  four argument arrays end as they began.

  What each staging buffer holds after the body at a point: the normalized features, the labels column and the margins
  column are fetched once and stay; the weight tile is fetched at every point, and at the last point only its first
  1696 columns come from the array (the tile overhangs the array's 100000 columns), the rest being whatever the
  buffer held — here named as zero, which nothing reads; the three result tiles hold the body's stores, of which the
  write-back takes the columns inside the array.
-/
import proofs.«145052_j16200616640758_2_alg».proof.Proof.IdealBody
import proofs.«145052_j16200616640758_2_alg».proof.Proof.Gen.KernelIdeal.Frame
import proofs.«145052_j16200616640758_2_alg».proof.Proof.Gen.KernelIdeal.Points
import Idealize.ShloMosaic.Lib.Pipeline.Frame
import proofs.«145052_j16200616640758_2_alg».proof.Proof.PayloadAt

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The weight tile at point `t` with its part outside the array named: the columns the fetch reads from the array,
    zero in the columns past the array's end (at the last point; at the others there are none). -/
def ktile (c : Dev nD) (t : Fin cfg0.N) : (cfg0.win 1).block.Idx → Elt Ideal (cfg0.win 1).elt :=
  (cfg0.win 1).fill (cfg0.grid.coords t) (fun _ => (Scalar.ofBits (F := Ideal) .f32 0#32 : Elt Ideal .f32)) (iblk m c 1 t)

/-- The three result tiles after the body at point `t`: the body's stored values of the input tiles. -/
def cosTile (c : Dev nD) (t : Fin cfg0.N) : (cfg0.win 4).block.Idx → Elt Ideal (cfg0.win 4).elt :=
  k0_pay2 (ktile m c t) (iblk m c 0 t)
def logitTile (c : Dev nD) (t : Fin cfg0.N) : (cfg0.win 5).block.Idx → Elt Ideal (cfg0.win 5).elt :=
  k0_pay3 (cfg0.grid.coords t) (ktile m c t) (iblk m c 0 t) (iblk m c 2 t) (iblk m c 3 t)
def hotTile (c : Dev nD) (t : Fin cfg0.N) : (cfg0.win 6).block.Idx → Elt Ideal (cfg0.win 6).elt :=
  k0_pay1 (cfg0.grid.coords t) (iblk m c 2 t)

/-- The proof data on core `c`: the arrays as the region finds them; after the body the inputs' buffers at their
    blocks (the weight tile filled out), the results' at the body's stores; the invariant the scoped rest and the generator
    register; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => ktile m c t
    | ⟨2, _⟩ => iblk m c 2 t
    | ⟨3, _⟩ => iblk m c 3 t
    | ⟨4, _⟩ => cosTile m c t
    | ⟨5, _⟩ => logitTile m c t
    | ⟨6, _⟩ => hotTile m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = ktile m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = cosTile m c t := by dsimp only [dats]
theorem after0_5 (c : Dev nD) (t : Fin cfg0.N) : (dats m 0 c).after 5 t = logitTile m c t := by dsimp only [dats]
theorem after0_6 (c : Dev nD) (t : Fin cfg0.N) : (dats m 0 c).after 6 t = hotTile m c t := by dsimp only [dats]

/-- The resident inputs' buffers hold their blocks at every point. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- The weight tile is fetched at every point: its buffer holds the block's part inside the array, and `d` past it. -/
theorem before0_1 (c : Dev nD) (t : Fin cfg0.N) (d) :
    (dats m 0 c).before 1 t d = (cfg0.win 1).fill (cfg0.grid.coords t) d (iblk m c 1 t) := by
  unfold Dat.before; rw [if_pos (fetch0_1 t)]; rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare ((cfg0.win 4).fill (cfg0.grid.coords t) d ((cfg0.win 4).cut (cfg0.grid.coords t) ((dats m 0 c).after 4 t))))
    ∗ (∃ d, owns (c : Thread nD τ) (st0_5 t) fullShare ((cfg0.win 5).fill (cfg0.grid.coords t) d ((cfg0.win 5).cut (cfg0.grid.coords t) ((dats m 0 c).after 5 t))))
    ∗ (∃ d, owns (c : Thread nD τ) (st0_6 t) fullShare ((cfg0.win 6).fill (cfg0.grid.coords t) d ((cfg0.win 6).cut (cfg0.grid.coords t) ((dats m 0 c).after 6 t)))))

/-! ## The windows over the grid -/

/-- Decided over the 25 grid points: the weight tile is never cut along its rows; along the columns it is cut exactly
    as the three result tiles are; the weight tile and the result tiles sit at block column `t`, block row 0. -/
theorem win_facts : ∀ t : Fin cfg0.N,
    (cfg0.win 1).xsize (cfg0.grid.coords t) (0 : Fin 2) = 512
    ∧ (cfg0.win 1).xsize (cfg0.grid.coords t) (1 : Fin 2) = (cfg0.win 4).xsize (cfg0.grid.coords t) (1 : Fin 2)
    ∧ (cfg0.win 1).xsize (cfg0.grid.coords t) (1 : Fin 2) = (cfg0.win 5).xsize (cfg0.grid.coords t) (1 : Fin 2)
    ∧ (cfg0.win 1).xsize (cfg0.grid.coords t) (1 : Fin 2) = (cfg0.win 6).xsize (cfg0.grid.coords t) (1 : Fin 2) :=
  (by decide +kernel : ∀ t : Fin grid0.N,
    win0_1.xsize (grid0.coords t) (0 : Fin 2) = 512
    ∧ win0_1.xsize (grid0.coords t) (1 : Fin 2) = win0_4.xsize (grid0.coords t) (1 : Fin 2)
    ∧ win0_1.xsize (grid0.coords t) (1 : Fin 2) = win0_5.xsize (grid0.coords t) (1 : Fin 2)
    ∧ win0_1.xsize (grid0.coords t) (1 : Fin 2) = win0_6.xsize (grid0.coords t) (1 : Fin 2))

/-- A column the fetch fills holds the array's entries whatever the buffer held before. -/
theorem fill_col (t : Fin cfg0.N) (d d' : (cfg0.win 1).block.Idx → Elt Ideal (cfg0.win 1).elt)
    (g : ((cfg0.win 1).xblock (cfg0.grid.coords t)).Idx → Elt Ideal (cfg0.win 1).elt) (j : Fin 4096)
    (hj : j.val < (cfg0.win 1).xsize (cfg0.grid.coords t) (1 : Fin 2)) (r : Fin 512) :
    (cfg0.win 1).fill (cfg0.grid.coords t) d g (Idealize.ShloMosaic.ValueIdx.ix2 r j)
      = (cfg0.win 1).fill (cfg0.grid.coords t) d' g (Idealize.ShloMosaic.ValueIdx.ix2 r j) := by
  have hm : (cfg0.win 1).moved (cfg0.grid.coords t) (Idealize.ShloMosaic.ValueIdx.ix2 r j) = true :=
    ((cfg0.win 1).moved_iff _ _).mpr fun a => by
      match a with
      | ⟨0, _⟩ => show r.val < (cfg0.win 1).xsize (cfg0.grid.coords t) (0 : Fin 2); rw [(win_facts t).1]; exact r.isLt
      | ⟨1, _⟩ => exact hj
  unfold Window.fill; rw [dif_pos hm, dif_pos hm]

/-- A result window's buffer is fresh at every point: the previous point wrote it back. -/
theorem before0_4 (c : Dev nD) (t : Fin cfg0.N) (d) : (dats m 0 c).before 4 t d = d :=
  (dats m 0 c).before_out_reset 4 rfl t (by by_cases h0 : t.val = 0; exact .inl h0; exact .inr ⟨h0, flush0_4 _⟩) d
theorem before0_5 (c : Dev nD) (t : Fin cfg0.N) (d) : (dats m 0 c).before 5 t d = d :=
  (dats m 0 c).before_out_reset 5 rfl t (by by_cases h0 : t.val = 0; exact .inl h0; exact .inr ⟨h0, flush0_5 _⟩) d
theorem before0_6 (c : Dev nD) (t : Fin cfg0.N) (d) : (dats m 0 c).before 6 t d = d :=
  (dats m 0 c).before_out_reset 6 rfl t (by by_cases h0 : t.val = 0; exact .inl h0; exact .inr ⟨h0, flush0_6 _⟩) d

/-- The columns of a result tile that the write-back takes do not depend on what the weight tile holds past the
    array's end: an entry of a result tile reads the weight tile along its own column only, and a column the write-back
    takes is a column the fetch filled. -/
theorem cut_cos (c : Dev nD) (t : Fin cfg0.N) (d1 : (cfg0.win 1).block.Idx → Elt Ideal (cfg0.win 1).elt) :
    (cfg0.win 4).cut (cfg0.grid.coords t) (k0_pay2 ((cfg0.win 1).fill (cfg0.grid.coords t) d1 (iblk m c 1 t)) (iblk m c 0 t))
      = (cfg0.win 4).cut (cfg0.grid.coords t) (cosTile m c t) := by
  funext y
  have hy : (y 1).val < (cfg0.win 1).xsize (cfg0.grid.coords t) (1 : Fin 2) := by rw [(win_facts t).2.1]; exact (y 1).isLt
  have hy4 : (y 1).val < 4096 := lt_of_lt_of_le hy ((cfg0.win 1).xsize_le _ 1)
  exact Cert.KernelIdeal.PayloadAt.pay2_congr _ _ (iblk m c 0 t) ((cfg0.win 4).xinj (cfg0.grid.coords t) y) ⟨(y 1).val, hy4⟩ rfl
    (fun r => fill_col t d1 _ (iblk m c 1 t) ⟨(y 1).val, hy4⟩ hy r)
theorem cut_logit (c : Dev nD) (t : Fin cfg0.N) (d1 : (cfg0.win 1).block.Idx → Elt Ideal (cfg0.win 1).elt) :
    (cfg0.win 5).cut (cfg0.grid.coords t) (k0_pay3 (cfg0.grid.coords t) ((cfg0.win 1).fill (cfg0.grid.coords t) d1 (iblk m c 1 t)) (iblk m c 0 t) (iblk m c 2 t) (iblk m c 3 t))
      = (cfg0.win 5).cut (cfg0.grid.coords t) (logitTile m c t) := by
  funext y
  have hy : (y 1).val < (cfg0.win 1).xsize (cfg0.grid.coords t) (1 : Fin 2) := by rw [(win_facts t).2.2.1]; exact (y 1).isLt
  have hy4 : (y 1).val < 4096 := lt_of_lt_of_le hy ((cfg0.win 1).xsize_le _ 1)
  exact Cert.KernelIdeal.PayloadAt.pay3_congr _ _ _ (iblk m c 0 t) (iblk m c 2 t) (iblk m c 3 t) ((cfg0.win 5).xinj (cfg0.grid.coords t) y) ⟨(y 1).val, hy4⟩ rfl
    (fun r => fill_col t d1 _ (iblk m c 1 t) ⟨(y 1).val, hy4⟩ hy r)

/-- The body at any point: the inputs' buffers hold their blocks, so the body's triple applies; the invariant and
    the core's tallies pass through unread. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t)
    ((cfg0.win 1).fill (cfg0.grid.coords t) d1 (iblk m c 1 t)) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]
  · iexists d1
    rw [show (cfg0.win 1).cut (cfg0.grid.coords t) (ktile m c t) = iblk m c 1 t from (cfg0.win 1).cut_fill _ _ _]
    iexact H1
  isplitl [H2]; · iexact H2
  isplitl [H3]; · iexact H3
  isplitl [H4]
  · iexists _
    rw [← cut_cos m c t d1, (cfg0.win 4).fill_cut]
    iexact H4
  isplitl [H5]
  · iexists _
    rw [← cut_logit m c t d1, (cfg0.win 5).fill_cut]
    iexact H5
  · iexists _
    rw [(cfg0.win 6).fill_cut]
    iexact H6

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of @main terminates; every array of the launch ends at what the write-backs computed
    from the proof data, every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The four argument arrays end as they began. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Run

end
-- ==== Proof.RefAt.lean ====
/-
  The reference's three large results read at an entry (p, q), over the extended reals:

  * the clipped cosine is clip( Σ_r f(p, r) · ( k(r, q) / max(√(0 + Σ_r' k(r', q)²), ε) ) ), with f the normalized features;
  * the indicator is 1 when the label of row p is q, else 0;
  * the scaled cosine is the clipped cosine times 64, and the logit is (cosine − indicator · margin(p)) · 64.
-/
import proofs.«145052_j16200616640758_2_alg».proof.Proof.Gen.ReferenceIdeal.Read
import Idealize.ShloMosaic.Lib.ValueIdx
import Idealize.ShloMosaic.Lib.IdealHost

set_option maxRecDepth 16384

noncomputable section

namespace Cert.ReferenceIdeal.RefAt

open Cert.ReferenceIdeal Cert.ReferenceIdeal.Gen Cert.ReferenceIdeal.Read Idealize.ShloMosaic Idealize.ShloMosaic.ValueIdx

/-! The printed index maps at coordinates. -/

theorem lidx_eq (p : Fin 256) (q : Fin 100000) (k : Fin 512) : lidx_main_v10 (ix2 p q) k = ix2 p k :=
  funext fun a => Fin.ext (by match a with | ⟨0, _⟩ => rfl | ⟨1, _⟩ => rfl)
theorem ridx_eq (p : Fin 256) (q : Fin 100000) (k : Fin 512) : ridx_main_v10 (ix2 p q) k = ix2 k q :=
  funext fun a => Fin.ext (by match a with | ⟨0, _⟩ => rfl | ⟨1, _⟩ => rfl)
theorem idx8_eq (k : Fin 512) (q : Fin 100000) : idx_main_v8 (ix2 k q) = ix2 (0 : Fin 1) q :=
  funext fun a => Fin.ext (by match a with | ⟨0, _⟩ => rfl | ⟨1, _⟩ => rfl)
theorem idxc1v2_eq (q : Fin 100000) : idx_main_call1_v2 (ix2 (0 : Fin 1) q) = ix1 q :=
  funext fun a => Fin.ext (by match a with | ⟨0, _⟩ => rfl)
theorem idxc1v1_eq (q : Fin 100000) (k : Fin 512) : idx_main_call1_v1 (ix1 q) k = ix2 k q :=
  funext fun a => Fin.ext (by match a with | ⟨0, _⟩ => rfl | ⟨1, _⟩ => rfl)
theorem idx20_eq (p : Fin 256) (q : Fin 100000) : idx_main_v20 (ix2 p q) = ix2 p (0 : Fin 1) :=
  funext fun a => Fin.ext (by match a with | ⟨0, _⟩ => rfl | ⟨1, _⟩ => rfl)
theorem idxc4v2_eq (p : Fin 256) (q : Fin 100000) : idx_main_call4_v2 (ix2 p q) = ix2 p (0 : Fin 1) :=
  funext fun a => Fin.ext (by match a with | ⟨0, _⟩ => rfl | ⟨1, _⟩ => rfl)
theorem idxc4v0_eq (p : Fin 256) : idx_main_call4_v0 (ix2 p (0 : Fin 1)) = ix1 p :=
  funext fun a => Fin.ext (by match a with | ⟨0, _⟩ => rfl)
theorem idxc4v3_eq (p : Fin 256) (q : Fin 100000) : idx_main_call4_v3 (ix2 p q) = ix2 (0 : Fin 1) q :=
  funext fun a => Fin.ext (by match a with | ⟨0, _⟩ => rfl | ⟨1, _⟩ => rfl)

/-- The guarded norm of column q of the weights, as the reference computes it. -/
theorem guard_at (a1 : FVec Ideal S512x100000 .f32) (q : Fin 100000) :
    val_main_v7 (F := Ideal) a1 (ix2 (0 : Fin 1) q)
      = max (Ideal.sqrt (FloatOps.ofBits (F := Ideal) .f32 0x00000000#32 + ∑ r : Fin 512, a1 (ix2 r q) * a1 (ix2 r q)))
          (FloatOps.ofBits (F := Ideal) .f32 0x2B8CBCCC#32) := by
  rw [val_main_v7_apply, val_main_v5_apply, val_main_call1_v2_apply, idxc1v2_eq, val_main_call1_v1_apply, val_main_v6_apply]
  simp only [idxc1v1_eq, val_main_call1_v0_apply]
  rfl

/-- The clipped cosine at (p, q). -/
theorem cos_at (a0 : FVec Ideal S256x512 .f32) (a1 : FVec Ideal S512x100000 .f32) (p : Fin 256) (q : Fin 100000) :
    val_main_v11 (F := Ideal) a0 a1 (ix2 p q)
      = min (FloatOps.ofBits (F := Ideal) .f32 0x3F7FFFFE#32) (max (FloatOps.ofBits (F := Ideal) .f32 0xBF7FFFFE#32)
          (∑ r : Fin 512, val_main_v4 (F := Ideal) a0 (ix2 p r) * Ideal.div (a1 (ix2 r q)) (val_main_v7 (F := Ideal) a1 (ix2 (0 : Fin 1) q)))) := by
  rw [val_main_v11_apply, val_main_call2_v2_apply, val_main_v10_apply, val_main_call2_v4_apply, val_main_call2_v1_apply]
  simp only [lidx_eq, ridx_eq, val_main_v9_apply, val_main_v8_apply, idx8_eq]
  rfl

/-- The indicator at (p, q). -/
theorem hot_at (a3 : IVec S256 32) (p : Fin 256) (q : Fin 100000) :
    val_main_v17 (F := Ideal) a3 (ix2 p q)
      = FloatOps.uitofp (F := Ideal) .f32 (IntOp.cmpi .eq (a3 (ix1 p)) (BitVec.ofNat 32 q.val)) := by
  rw [val_main_v17_apply, val_main_call4_v4_apply, val_main_call4_v2_apply, idxc4v2_eq, val_main_call4_v0_apply, idxc4v0_eq,
    val_main_call4_v3_apply, idxc4v3_eq, val_main_call4_v1_apply]

/-- The scaled cosine at (p, q). -/
theorem scaled_at (a0 : FVec Ideal S256x512 .f32) (a1 : FVec Ideal S512x100000 .f32) (p : Fin 256) (q : Fin 100000) :
    val_main_v19 (F := Ideal) a0 a1 (ix2 p q)
      = val_main_v11 (F := Ideal) a0 a1 (ix2 p q) * FloatOps.ofBits (F := Ideal) .f32 0x42800000#32 := by
  rw [val_main_v19_apply, val_main_v18_apply]
  rfl

/-- The logit at (p, q). -/
theorem logit_at (a0 : FVec Ideal S256x512 .f32) (a1 : FVec Ideal S512x100000 .f32) (a2 : FVec Ideal S256x1 .f32) (a3 : IVec S256 32)
    (p : Fin 256) (q : Fin 100000) :
    val_main_v24 (F := Ideal) a0 a1 a2 a3 (ix2 p q)
      = (val_main_v11 (F := Ideal) a0 a1 (ix2 p q) - val_main_v17 (F := Ideal) a3 (ix2 p q) * val_main_v16 (F := Ideal) a2 (ix2 p (0 : Fin 1)))
        * FloatOps.ofBits (F := Ideal) .f32 0x42800000#32 := by
  rw [val_main_v24_apply, val_main_v22_apply, val_main_v21_apply, val_main_v20_apply, idx20_eq, val_main_v23_apply]
  rfl

end Cert.ReferenceIdeal.RefAt

end
-- ==== Proof.LibERealSum.lean ====
/-
  Two facts about the extended reals, for a sum of products that shares a factor.

  A finite sum of extended reals times a NONNEGATIVE REAL is the sum of the products: the extended reals are not a
  ring (`⊤ + ⊥ = ⊥` breaks distributivity in general), but a nonnegative finite factor distributes over any sum,
  infinite terms included.

  The guarded inverse square root `if 0 < x then x^(-1/2) else 0` is a nonnegative real at EVERY extended real `x`:
  at `⊤` the inverse square root is `0`, at a positive real it is `(√x)⁻¹`, and everywhere else the guard answers `0`.
-/
import Mathlib.Data.EReal.Operations
import Idealize.ShloMosaic.PureOps.Ideal

namespace Idealize.ShloMosaic.ERealSum

open Idealize.ShloMosaic

/-- A finite sum of extended reals times a nonnegative real is the sum of the products. -/
theorem sum_mul_coe {ι : Type*} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A sum of products `a · p` times a nonnegative real `D` is the sum of `a · (p · D)`: the factor is moved inside and
    regrouped. The terms may be infinite; `D` may not. -/
theorem sum_mul_assoc {ι : Type*} (s : Finset ι) (a p : ι → EReal) {D : EReal} (hD : ∃ r : ℝ, 0 ≤ r ∧ D = (r : EReal)) :
    (∑ j ∈ s, a j * p j) * D = ∑ j ∈ s, a j * (p j * D) := by
  obtain ⟨r, hr, rfl⟩ := hD
  rw [sum_mul_coe s _ hr]
  exact Finset.sum_congr rfl fun j _ => mul_assoc _ _ _

/-- `if 0 < x then rsqrt x else 0` is a nonnegative real whatever the extended real `x`. -/
theorem guarded_rsqrt_real (x : EReal) :
    ∃ r : ℝ, 0 ≤ r ∧ Scalar.select (Ideal.cmp .ogt x 0) (Ideal.rsqrt x) (0 : EReal) = (r : EReal) := by
  by_cases h : (0 : EReal) < x
  · have hc : Ideal.cmp .ogt x 0 = 1#1 := by simp [Ideal.cmp, h]
    rw [hc]
    show ∃ r : ℝ, 0 ≤ r ∧ Ideal.rsqrt x = (r : EReal)
    induction x using EReal.rec with
    | bot => exact absurd h (by simp)
    | top => exact ⟨0, le_rfl, by rw [EReal.coe_zero]; rfl⟩
    | coe y =>
      have hy : 0 < y := by exact_mod_cast h
      refine ⟨(Real.sqrt y)⁻¹, inv_nonneg.mpr (Real.sqrt_nonneg y), ?_⟩
      show (if y < 0 then (⊥ : EReal) else if y = 0 then ⊤ else (((Real.sqrt y)⁻¹ : ℝ) : EReal)) = _
      rw [if_neg (not_lt.mpr hy.le), if_neg hy.ne']
  · have hc : Ideal.cmp .ogt x 0 = 0#1 := by simp [Ideal.cmp, h]
    rw [hc]
    exact ⟨0, le_rfl, by simp [Scalar.select]⟩

/-- The two arrangements of a normalised aggregate. On the left every term `a · p` is summed (onto zero) and the sum
    scaled by `D`; on the right every term carries its own second factor `q`, which on the summed set is `D`. For a
    nonnegative real `D` the two agree, whatever the terms. -/
theorem scaled_sum_eq {ι : Type*} (s : Finset ι) (a p q : ι → EReal) {D : EReal}
    (hD : ∃ r : ℝ, 0 ≤ r ∧ D = (r : EReal)) (hq : ∀ j ∈ s, q j = D) :
    (0 + ∑ j ∈ s, a j * p j) * D = 0 + ∑ j ∈ s, a j * (p j * q j) := by
  rw [zero_add, zero_add, sum_mul_assoc s a p hD]
  exact Finset.sum_congr rfl fun j hj => by rw [hq j hj]

/-- The same for the host's accumulating scatter at one result element `i`: scattering the terms `a · p` onto an array
    that is zero at `i` and scaling what arrives by `D` is scattering the terms `a · (p · q)` onto such an array, when
    every update that lands on `i` has `q = D` and `D` is a nonnegative real. -/
theorem hostScatterAdd_scaled {s si su : Shape} (d : ScatterDims s si su) {w : Nat} (idx : IVec si w)
    (z z' : s.Idx → EReal) (a p q : su.Idx → EReal) (i : s.Idx) {D : EReal}
    (hz : z i = 0) (hz' : z' i = 0) (hD : ∃ r : ℝ, 0 ≤ r ∧ D = (r : EReal))
    (hq : ∀ j, d.resultIdx? j idx = some i → q j = D) :
    Ideal.hostScatterAdd d z idx (fun j => a j * p j) i * D
      = Ideal.hostScatterAdd d z' idx (fun j => a j * (p j * q j)) i := by
  unfold Ideal.hostScatterAdd
  show (z i + ∑ j ∈ _, a j * p j) * D = z' i + ∑ j ∈ _, a j * (p j * q j)
  rw [hz, hz']
  exact scaled_sum_eq _ a p q hD fun j hj => hq j (Finset.mem_filter.mp hj).2

end Idealize.ShloMosaic.ERealSum
-- ==== Proof.LibGuardedNorm.lean ====
/-
  Extended-real facts for an inner product normalized by a guarded column norm, and for clipped values.

  * A cosine: the kernel scales the whole inner product by the reciprocal of the guarded column norm,
    (Σ_r f_r · k_r) · (1 / m); the reference divides every weight by the norm first, Σ_r f_r · (k_r / m). For a
    positive REAL m the two agree whatever the terms are: dividing by m is multiplying by the nonnegative real 1/m,
    and a nonnegative real factor distributes over any finite sum of extended reals. The guarded norm
    m = max(√(Σ k²), ε) is a positive real as soon as the column's weights are real and ε is a positive real.
  * A logit: c · S − o · (g · S) = (c − o · g) · S for real c, o, g, S; a value clipped between two reals is real.
-/
import Mathlib.Data.EReal.Operations
import Idealize.ShloMosaic.PureOps.Ideal
import proofs.«145052_j16200616640758_2_alg».proof.Proof.LibERealSum

noncomputable section

namespace Cert.LibGuardedNorm

open Idealize.ShloMosaic

/-- A float pattern whose exponent field is not all ones denotes a real number. -/
theorem ofBits_f32_real (w : BitVec 32) (h : (w.extractLsb' 23 8).toNat ≠ 255) : ∃ r : ℝ, Ideal.ofBits .f32 w = (r : EReal) := by
  show ∃ r : ℝ, Ideal.ieee 8 23 w = (r : EReal)
  unfold Ideal.ieee
  dsimp only
  rw [if_neg (by simpa using h)]
  split <;> exact ⟨_, rfl⟩

/-- A normal float pattern with a clear sign bit denotes a positive real number. -/
theorem ofBits_f32_pos (w : BitVec 32) (hs : w.extractLsb' 31 1 = 0#1) (he : (w.extractLsb' 23 8).toNat ≠ 255)
    (h0 : (w.extractLsb' 23 8).toNat ≠ 0) : ∃ r : ℝ, 0 < r ∧ Ideal.ofBits .f32 w = (r : EReal) := by
  show ∃ r : ℝ, 0 < r ∧ Ideal.ieee 8 23 w = (r : EReal)
  unfold Ideal.ieee
  dsimp only
  rw [if_neg (by simpa using he), if_neg h0]
  refine ⟨_, ?_, rfl⟩
  have hb : (w.extractLsb' (8 + 23) 1 == 1#1) = false := by
    rw [show 8 + 23 = 31 from rfl, hs]; decide
  rw [hb]
  simp only [Bool.false_eq_true, if_false, one_mul]
  positivity

/-- The embedding of the reals keeps maxima and minima. -/
theorem coe_max' (a b : ℝ) : ((max a b : ℝ) : EReal) = max (a : EReal) (b : EReal) := EReal.coe_strictMono.monotone.map_max
theorem coe_min' (a b : ℝ) : ((min a b : ℝ) : EReal) = min (a : EReal) (b : EReal) := EReal.coe_strictMono.monotone.map_min

/-- A finite sum of squares of real numbers is a nonnegative real number. -/
theorem sumsq_real {ι : Type*} (s : Finset ι) (k : ι → EReal) (hk : ∀ r ∈ s, ∃ x : ℝ, k r = (x : EReal)) :
    ∃ q : ℝ, 0 ≤ q ∧ ∑ r ∈ s, k r * k r = (q : EReal) := by
  classical
  induction s using Finset.induction_on with
  | empty => exact ⟨0, le_rfl, by simp⟩
  | insert a s ha ih =>
    obtain ⟨q, hq, e⟩ := ih fun r hr => hk r (Finset.mem_insert_of_mem hr)
    obtain ⟨x, hx⟩ := hk a (Finset.mem_insert_self a s)
    refine ⟨x * x + q, add_nonneg (mul_self_nonneg x) hq, ?_⟩
    rw [Finset.sum_insert ha, e, hx, ← EReal.coe_mul, ← EReal.coe_add]

/-- The square root of a nonnegative real, guarded from below by a positive real, is a positive real. -/
theorem guard_pos (S eps : EReal) (hS : ∃ q : ℝ, 0 ≤ q ∧ S = (q : EReal)) (he : ∃ e : ℝ, 0 < e ∧ eps = (e : EReal)) :
    ∃ m : ℝ, 0 < m ∧ max (Ideal.sqrt S) eps = (m : EReal) := by
  obtain ⟨q, hq, rfl⟩ := hS
  obtain ⟨e, he, rfl⟩ := he
  refine ⟨max (Real.sqrt q) e, lt_max_of_lt_right he, ?_⟩
  have hsq : Ideal.sqrt (q : EReal) = ((Real.sqrt q : ℝ) : EReal) := by
    show (if q < 0 then (⊥ : EReal) else ((Real.sqrt q : ℝ) : EReal)) = _
    rw [if_neg (not_lt.mpr hq)]
  rw [hsq, coe_max']

/-- Scaling an inner product by the reciprocal of a positive real is dividing every second factor by it. -/
theorem scaled_dot {ι : Type*} (s : Finset ι) (f k : ι → EReal) (one m : EReal) (hone : one = 1)
    (hm : ∃ r : ℝ, 0 < r ∧ m = (r : EReal)) :
    (∑ r ∈ s, f r * k r) * Ideal.div one m = ∑ r ∈ s, f r * Ideal.div (k r) m := by
  obtain ⟨r, hr, rfl⟩ := hm
  rw [hone, Ideal.div_coe hr.ne', one_mul, ERealSum.sum_mul_assoc s f k ⟨1 / r, by positivity, rfl⟩]
  exact Finset.sum_congr rfl fun j _ => by rw [Ideal.div_coe hr.ne']

/-- A value clipped between two real numbers is a real number. -/
theorem clip_real (l h : ℝ) (x : EReal) : ∃ c : ℝ, min (h : EReal) (max (l : EReal) x) = (c : EReal) := by
  induction x using EReal.rec with
  | bot => exact ⟨min h l, by rw [max_eq_left bot_le, coe_min']⟩
  | top => exact ⟨h, by rw [max_eq_right le_top, min_eq_left le_top]⟩
  | coe y => exact ⟨min h (max l y), by rw [coe_min', coe_max']⟩

/-- The two spellings of a margin logit agree on real numbers. -/
theorem logit_law (c g o S : EReal) (hc : ∃ x : ℝ, c = (x : EReal)) (hg : ∃ x : ℝ, g = (x : EReal))
    (ho : ∃ x : ℝ, o = (x : EReal)) (hS : ∃ x : ℝ, S = (x : EReal)) :
    c * S - o * (g * S) = (c - o * g) * S := by
  obtain ⟨c, rfl⟩ := hc
  obtain ⟨g, rfl⟩ := hg
  obtain ⟨o, rfl⟩ := ho
  obtain ⟨S, rfl⟩ := hS
  simp only [← EReal.coe_mul, ← EReal.coe_sub]
  exact congrArg _ (by ring)

end Cert.LibGuardedNorm

end
-- ==== Proof.LibIdealBits.lean ====
import Idealize.ShloMosaic.PureOps.Ideal
import Idealize.ShloMosaic.PureOps.Ideal.Laws
import Idealize.ShloMosaic.Lib.ValueIdx

/-! # Small general facts at the exact instance

* A scalar float literal, and the integer-to-float conversions, read at the exact instance — each stated for a
  VARIABLE word, so that rewriting with them never makes Lean evaluate a particular float literal (comparing
  `Scalar.ofBits .f32 w` with `Ideal.ofBits .f32 w` by unfolding, at a literal `w`, can run out of memory).
* A comparison bit widened to 32 bits and converted as a SIGNED integer (a kernel's `(cond).astype(float32)`:
  `arith.extui` then `arith.sitofp`) is the bit converted as an UNSIGNED integer (the host's `convert` of an i1):
  both are the number 0 or 1.
* A sum over a rank-1 index set is the sum over its one coordinate. -/

noncomputable section

namespace Cert.LibIdealBits

open Idealize.ShloMosaic Idealize.ShloMosaic.ValueIdx

/-- A scalar literal at the exact instance is the instance's reading of its word. -/
theorem scalar_ofBits (φ : FTy) (b : BitVec φ.bits) : Scalar.ofBits (F := Ideal) φ b = Ideal.ofBits φ b := rfl

/-- A signed integer converted to a float at the exact instance is that integer. -/
theorem sitofp_ideal {w : Nat} (b : BitVec w) : FloatOps.sitofp (F := Ideal) .f32 b = (((b.toInt : ℝ)) : EReal) := rfl

/-- An unsigned integer converted to a float at the exact instance is that number. -/
theorem uitofp_ideal {w : Nat} (b : BitVec w) : FloatOps.uitofp (F := Ideal) .f32 b = (((b.toNat : ℝ)) : EReal) := rfl

/-- A bit widened to 32 bits and read as a signed integer is the bit read as a natural number: both are 0 or 1. -/
theorem bit_signed_eq_unsigned (b : BitVec 1) : (((b.setWidth 32).toInt : ℝ) : EReal) = (((b.toNat : ℝ)) : EReal) := by
  have h : (b.setWidth 32).toInt = (b.toNat : ℤ) := by
    rcases BitVec.eq_zero_or_eq_one b with h | h <;> subst h <;> decide
  rw [h, Int.cast_natCast]

/-- So widening a bit and converting it signed is converting it unsigned. -/
theorem sitofp_extui_bit (b : BitVec 1) :
    FloatOps.sitofp (F := Ideal) .f32 (b.setWidth 32) = FloatOps.uitofp (F := Ideal) .f32 b := by
  rw [sitofp_ideal, uitofp_ideal, bit_signed_eq_unsigned]

/-- A rank-1 index set is its one coordinate's range … -/
def idxEquiv1 {n : Nat} : (⟨1, ![n]⟩ : Shape).Idx ≃ Fin n where
  toFun i := i 0
  invFun k := ix1 k
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

end Cert.LibIdealBits

end
-- ==== Proof.Bridge.lean ====
/-
  Entry by entry, the kernel's three stored tiles are the reference's three results. At grid point t the tile's
  column j is the array's column q = 4096·t + j. Given that the feature tile is the reference's normalized features,
  that the weight tile's column j is the weight array's column q, that the labels and margins columns are the
  reference's, and that the weights of column q are real numbers:

  * the cosine entry: both sides clip and scale the same number, because scaling the inner product by the reciprocal
    of the guarded column norm is dividing each weight by it (the norm is a positive real);
  * the indicator entry: a comparison bit widened and converted signed is the bit converted unsigned, and the
    column's number 4096·t + j computed in 32-bit words is the word of q;
  * the logit entry: c·64 − o·(g·64) = (c − o·g)·64 on real numbers.
-/
import proofs.«145052_j16200616640758_2_alg».proof.Proof.PayloadAt
import proofs.«145052_j16200616640758_2_alg».proof.Proof.RefAt
import proofs.«145052_j16200616640758_2_alg».proof.Proof.LibGuardedNorm
import proofs.«145052_j16200616640758_2_alg».proof.Proof.LibIdealBits
import Idealize.ShloMosaic.Lib.IdealHost

set_option maxRecDepth 16384

noncomputable section

namespace Cert.Bridge

open Idealize.ShloMosaic Idealize.ShloMosaic.ValueIdx
open Cert.KernelIdeal.Gen (k0_pay1 k0_pay2 k0_pay3)
open Cert.ReferenceIdeal.Read (val_main_v4 val_main_v7 val_main_v11 val_main_v16 val_main_v17 val_main_v19 val_main_v24)

variable [Cert.KernelIdeal.Facts] [Cert.ReferenceIdeal.Facts]

/-- The guarded norm of a column of real weights is a positive real. -/
theorem guard_real (a1 : FVec Ideal Cert.ReferenceIdeal.S512x100000 .f32) (q : Fin 100000)
    (hfin : ∀ r : Fin 512, ∃ x : ℝ, a1 (ix2 r q) = (x : EReal)) :
    ∃ mm : ℝ, 0 < mm ∧ val_main_v7 (F := Ideal) a1 (ix2 (0 : Fin 1) q) = (mm : EReal) := by
  rw [Cert.ReferenceIdeal.RefAt.guard_at, Ideal.ofBits_def, Ideal.ofBits_def, Ideal.ofBits_zero_f32, zero_add]
  exact Cert.LibGuardedNorm.guard_pos _ _ (Cert.LibGuardedNorm.sumsq_real Finset.univ _ fun r _ => hfin r)
    (Cert.LibGuardedNorm.ofBits_f32_pos _ (by decide) (by decide) (by decide))

/-- The kernel's guarded norm of column j of its tile is the reference's of column q. -/
theorem cos_bridge (x1 : FVec Ideal Cert.KernelIdeal.S512x4096 .f32) (x0 : FVec Ideal Cert.KernelIdeal.S256x512 .f32)
    (a0 : FVec Ideal Cert.ReferenceIdeal.S256x512 .f32) (a1 : FVec Ideal Cert.ReferenceIdeal.S512x100000 .f32)
    (p : Fin 256) (j : Fin 4096) (q : Fin 100000)
    (h0 : ∀ r : Fin 512, x0 (ix2 p r) = val_main_v4 (F := Ideal) a0 (ix2 p r))
    (h1 : ∀ r : Fin 512, x1 (ix2 r j) = a1 (ix2 r q))
    (hfin : ∀ r : Fin 512, ∃ x : ℝ, a1 (ix2 r q) = (x : EReal)) :
    k0_pay2 (F := Ideal) x1 x0 (ix2 p j) = val_main_v19 (F := Ideal) a0 a1 (ix2 p q) := by
  obtain ⟨mm, hmm, hg⟩ := guard_real a1 q hfin
  have hg' := hg
  rw [Cert.ReferenceIdeal.RefAt.guard_at, Ideal.ofBits_def, Ideal.ofBits_def, Ideal.ofBits_zero_f32, zero_add] at hg'
  rw [Cert.KernelIdeal.PayloadAt.pay2_at, Cert.ReferenceIdeal.RefAt.scaled_at, Cert.ReferenceIdeal.RefAt.cos_at, hg]
  simp only [h0, h1]
  simp only [Scalar.ofBits, Ideal.ofBits_def]
  rw [hg', Cert.LibGuardedNorm.scaled_dot Finset.univ _ _ _ _ Ideal.ofBits_one_f32 ⟨mm, hmm, rfl⟩]

/-- The column's number, computed in 32-bit words from the grid coordinate and the lane, is the word of q. -/
theorem col_word (t : Nat) (j : Fin 4096) (ht : t < 25) :
    IntOp.addi (Scalar.muli (BitVec.ofNat 32 t) 4096#32) (BitVec.ofNat 32 j.val) = BitVec.ofNat 32 (4096 * t + j.val) := by
  have hj := j.isLt
  apply BitVec.eq_of_toNat_eq
  simp only [IntOp.addi, Scalar.muli, IntOp.muli, BitVec.toNat_add, BitVec.toNat_mul, BitVec.toNat_ofNat]
  omega

/-- The indicator entries agree. -/
theorem hot_bridge (i : Cert.KernelIdeal.grid0.Coords) (x2 : Vec Ideal Cert.KernelIdeal.S256x1 .i32) (a3 : IVec Cert.ReferenceIdeal.S256 32)
    (p : Fin 256) (j : Fin 4096) (q : Fin 100000) (t : Nat) (ht : t < 25) (hi : (i 0).val = t) (hq : q.val = 4096 * t + j.val)
    (h2 : x2 (ix2 p (0 : Fin 1)) = a3 (ix1 p)) :
    k0_pay1 (F := Ideal) i x2 (ix2 p j) = val_main_v17 (F := Ideal) a3 (ix2 p q) := by
  rw [Cert.KernelIdeal.PayloadAt.pay1_at, Cert.ReferenceIdeal.RefAt.hot_at, h2, hi, col_word t j ht, hq,
    Cert.LibIdealBits.sitofp_extui_bit]

/-- A margin is a real number: it is clipped between two real bounds. -/
theorem margin_real (a2 : FVec Ideal Cert.ReferenceIdeal.S256x1 .f32) (p : Fin 256) :
    ∃ x : ℝ, val_main_v16 (F := Ideal) a2 (ix2 p (0 : Fin 1)) = (x : EReal) := by
  obtain ⟨lo, hlo⟩ := Cert.LibGuardedNorm.ofBits_f32_real 0x3EACCCCD#32 (by decide)
  obtain ⟨hi, hhi⟩ := Cert.LibGuardedNorm.ofBits_f32_real 0x3EB9999A#32 (by decide)
  rw [Cert.ReferenceIdeal.Read.val_main_v16_apply, Cert.ReferenceIdeal.Read.val_main_call3_v4_apply,
    Cert.ReferenceIdeal.Read.val_main_call3_v3_apply, Cert.ReferenceIdeal.Read.val_main_cst_6_apply,
    Cert.ReferenceIdeal.Read.val_main_call3_v2_apply, Cert.ReferenceIdeal.Read.val_main_call3_v1_apply,
    Cert.ReferenceIdeal.Read.val_main_call3_v0_apply, Cert.ReferenceIdeal.Read.val_main_cst_5_apply]
  simp only [Ideal.ofBits_def, Ideal.minimumf_def, Ideal.maximumf_def]
  rw [hlo, hhi]
  exact Cert.LibGuardedNorm.clip_real lo hi _

/-- A clipped cosine is a real number. -/
theorem cos_real (a0 : FVec Ideal Cert.ReferenceIdeal.S256x512 .f32) (a1 : FVec Ideal Cert.ReferenceIdeal.S512x100000 .f32)
    (p : Fin 256) (q : Fin 100000) : ∃ x : ℝ, val_main_v11 (F := Ideal) a0 a1 (ix2 p q) = (x : EReal) := by
  obtain ⟨lo, hlo⟩ := Cert.LibGuardedNorm.ofBits_f32_real 0xBF7FFFFE#32 (by decide)
  obtain ⟨hi, hhi⟩ := Cert.LibGuardedNorm.ofBits_f32_real 0x3F7FFFFE#32 (by decide)
  rw [Cert.ReferenceIdeal.RefAt.cos_at]
  simp only [Ideal.ofBits_def]
  rw [hlo, hhi]
  exact Cert.LibGuardedNorm.clip_real lo hi _

/-- The logit entries agree. -/
theorem logit_bridge (i : Cert.KernelIdeal.grid0.Coords) (x1 : FVec Ideal Cert.KernelIdeal.S512x4096 .f32)
    (x0 : FVec Ideal Cert.KernelIdeal.S256x512 .f32) (x2 : Vec Ideal Cert.KernelIdeal.S256x1 .i32) (x3 : FVec Ideal Cert.KernelIdeal.S256x1 .f32)
    (a0 : FVec Ideal Cert.ReferenceIdeal.S256x512 .f32) (a1 : FVec Ideal Cert.ReferenceIdeal.S512x100000 .f32)
    (a2 : FVec Ideal Cert.ReferenceIdeal.S256x1 .f32) (a3 : IVec Cert.ReferenceIdeal.S256 32)
    (p : Fin 256) (j : Fin 4096) (q : Fin 100000) (t : Nat) (ht : t < 25) (hi : (i 0).val = t) (hq : q.val = 4096 * t + j.val)
    (h0 : ∀ r : Fin 512, x0 (ix2 p r) = val_main_v4 (F := Ideal) a0 (ix2 p r))
    (h1 : ∀ r : Fin 512, x1 (ix2 r j) = a1 (ix2 r q))
    (h2 : x2 (ix2 p (0 : Fin 1)) = a3 (ix1 p))
    (h3 : x3 (ix2 p (0 : Fin 1)) = val_main_v16 (F := Ideal) a2 (ix2 p (0 : Fin 1)))
    (hfin : ∀ r : Fin 512, ∃ x : ℝ, a1 (ix2 r q) = (x : EReal)) :
    k0_pay3 (F := Ideal) i x1 x0 x2 x3 (ix2 p j) = val_main_v24 (F := Ideal) a0 a1 a2 a3 (ix2 p q) := by
  rw [Cert.KernelIdeal.PayloadAt.pay3_at, cos_bridge x1 x0 a0 a1 p j q h0 h1 hfin, hot_bridge i x2 a3 p j q t ht hi hq h2, h3,
    Cert.ReferenceIdeal.RefAt.scaled_at, Cert.ReferenceIdeal.RefAt.logit_at]
  simp only [Scalar.ofBits, Ideal.ofBits_def]
  exact Cert.LibGuardedNorm.logit_law _ _ _ _ (cos_real a0 a1 p q) (margin_real a2 p)
    ⟨_, Cert.LibIdealBits.uitofp_ideal _⟩ (Cert.LibGuardedNorm.ofBits_f32_real _ (by decide))

end Cert.Bridge

end
-- ==== Proof.Entry.lean ====
/-
  What the launch finds in the arrays the host operations before it wrote, at the exact instance: the normalized
  features, the row norms, the clipped margins and the labels column are the same operations of the same arguments as
  the reference's, so they are the reference's terms.
-/
import proofs.«145052_j16200616640758_2_alg».proof.Proof.Gen.KernelIdeal.Frame
import proofs.«145052_j16200616640758_2_alg».proof.Proof.Gen.ReferenceIdeal.Read
import proofs.«145052_j16200616640758_2_alg».proof.Proof.LibColumns
import Idealize.ShloMosaic.Lib.StableHlo.Run
import Idealize.ShloMosaic.Lib.ValueIdx

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo Idealize.ShloMosaic.ValueIdx

variable [Cert.ReferenceIdeal.Facts]
variable (m : (ℓ : Loc nD τ sig) → Buf (Elt Ideal) ℓ)

/-- The normalized features the launch stages. -/
theorem V_feats (c : Dev nD) : (V m c main_v4 : S256x512.Idx → EReal)
    = Cert.ReferenceIdeal.Read.val_main_v4 (F := Ideal) (m ((c : Thread nD τ).loc main_arg0)) := by
  dsimp only [V]
  simp only [hostOps0, hostOps0_1, hostOps0_2, hostOps0_3, List.flatten_cons, List.flatten_nil, List.append_nil, List.cons_append,
    List.nil_append]
  after_results
  rfl

/-- The row norms, a result of the program. -/
theorem V_norms (c : Dev nD) : (V m c main_v0 : S256x1.Idx → EReal)
    = Cert.ReferenceIdeal.Read.val_main_v0 (F := Ideal) (m ((c : Thread nD τ).loc main_arg0)) := by
  dsimp only [V]
  simp only [hostOps0, hostOps0_1, hostOps0_2, hostOps0_3, List.flatten_cons, List.flatten_nil, List.append_nil, List.cons_append,
    List.nil_append]
  after_results
  rfl

/-- The clipped margins column the launch stages. -/
theorem V_margin (c : Dev nD) : (V m c main_v9 : S256x1.Idx → EReal)
    = Cert.ReferenceIdeal.Read.val_main_v16 (F := Ideal) (m ((c : Thread nD τ).loc main_arg2)) := by
  dsimp only [V]
  simp only [hostOps0, hostOps0_1, hostOps0_2, hostOps0_3, List.flatten_cons, List.flatten_nil, List.append_nil, List.cons_append,
    List.nil_append]
  after_results
  rfl

/-- The labels column the launch stages: row p holds label p. -/
theorem V_labels (c : Dev nD) (p : Fin 256) : (V m c main_v10 : S256x1.Idx → BitVec 32) (ix2 p (0 : Fin 1))
    = (m ((c : Thread nD τ).loc main_arg3) : S256.Idx → BitVec 32) (ix1 p) := by
  have e : (V m c main_v10 : S256x1.Idx → BitVec 32)
      = shapeCast S256x1 (m ((c : Thread nD τ).loc main_arg3) : S256.Idx → BitVec 32) shapeCasts_S256_S256x1 := by
    dsimp only [V]
    simp only [hostOps0, hostOps0_1, hostOps0_2, hostOps0_3, List.flatten_cons, List.flatten_nil, List.append_nil, List.cons_append,
      List.nil_append]
    after_results
    rfl
  rw [e]
  exact shapeCast_a_a1_apply _ shapeCasts_S256_S256x1 p 0

end Cert.KernelIdeal.Entry

end
-- ==== Proof.Final.lean ====
/-
  The three large result arrays after the run are the reference's results. The launch writes back, at grid point t, the
  first min(4096, 100000 − 4096·t) columns of each result tile onto columns 4096·t … of its array; entry (p, j) of a
  tile is the reference's entry (p, 4096·t + j) (the features tile is the reference's normalized features, column j of
  the weight tile is column 4096·t + j of the weight array, the labels and margins columns are the reference's); and
  column q of an array lies in the block of point q / 4096. The row norms are written by the host operations before
  the launch, by the reference's own operations.
-/
import proofs.«145052_j16200616640758_2_alg».proof.Proof.IdealRun
import proofs.«145052_j16200616640758_2_alg».proof.Proof.Bridge
import proofs.«145052_j16200616640758_2_alg».proof.Proof.Entry
import Idealize.ShloMosaic.Lib.Pipeline.Value

set_option maxRecDepth 16384

noncomputable section

namespace Cert.KernelIdeal.Final

open Cert.KernelIdeal Cert.KernelIdeal.Gen Cert.KernelIdeal.Run
open Idealize.ShloMosaic Idealize.ShloMosaic.TcCoe Idealize.ShloMosaic.ValueIdx
open Idealize.SL Idealize.SL.Sem
open Idealize.ShloMosaic.Pipeline (Dat Cfg Window)
open Cert.ReferenceIdeal.Read (val_main_v0 val_main_v4 val_main_v16 val_main_v17 val_main_v19 val_main_v24)

variable [Cert.ReferenceIdeal.Facts]
variable (m : (ℓ : Loc nD τ sig) → Buf (Elt Ideal) ℓ) (ρ : Dev nD → PrngReg)

/-! ## The windows over the grid, decided -/

/-- The grid coordinate is the point's number; the resident inputs sit at block (0, 0); the weight tile at block
    (0, t), uncut along its rows and cut along its columns at the array's end. -/
theorem grid_facts : ∀ t : Fin cfg0.N,
    (grid0.coords t 0).val = t.val
    ∧ win0_0.index t (0 : Fin 2) = 0 ∧ win0_0.index t (1 : Fin 2) = 0
    ∧ win0_2.index t (0 : Fin 2) = 0 ∧ win0_2.index t (1 : Fin 2) = 0
    ∧ win0_3.index t (0 : Fin 2) = 0 ∧ win0_3.index t (1 : Fin 2) = 0
    ∧ (win0_1.index t (0 : Fin 2) = 0 ∧ win0_1.index t (1 : Fin 2) = t.val
      ∧ win0_1.xsize (grid0.coords t) (0 : Fin 2) = 512 ∧ win0_1.xsize (grid0.coords t) (1 : Fin 2) = min 4096 (100000 - 4096 * t.val)) :=
  (by decide +kernel : ∀ t : Fin grid0.N, _)

/-- Each result tile sits at block (0, t), uncut along its rows and cut along its columns at the array's end. -/
theorem out_facts : ∀ t : Fin cfg0.N,
    (win0_4.index t (0 : Fin 2) = 0 ∧ win0_4.index t (1 : Fin 2) = t.val
      ∧ win0_4.xsize (grid0.coords t) (0 : Fin 2) = 256 ∧ win0_4.xsize (grid0.coords t) (1 : Fin 2) = min 4096 (100000 - 4096 * t.val))
    ∧ (win0_5.index t (0 : Fin 2) = 0 ∧ win0_5.index t (1 : Fin 2) = t.val
      ∧ win0_5.xsize (grid0.coords t) (0 : Fin 2) = 256 ∧ win0_5.xsize (grid0.coords t) (1 : Fin 2) = min 4096 (100000 - 4096 * t.val))
    ∧ (win0_6.index t (0 : Fin 2) = 0 ∧ win0_6.index t (1 : Fin 2) = t.val
      ∧ win0_6.xsize (grid0.coords t) (0 : Fin 2) = 256 ∧ win0_6.xsize (grid0.coords t) (1 : Fin 2) = min 4096 (100000 - 4096 * t.val)) :=
  (by decide +kernel : ∀ t : Fin grid0.N, _)

/-! ## The input tiles, entry by entry -/

/-- The features tile is the reference's normalized features. -/
theorem feats_at (c : Dev nD) (t : Fin cfg0.N) (p : Fin 256) (r : Fin 512) :
    iblk m c 0 t (ix2 p r) = val_main_v4 (F := Ideal) (m ((c : Thread nD τ).loc main_arg0)) (ix2 p r) := by
  obtain ⟨f0, f1, f2, f3, f4, f5, f6, f7⟩ := grid_facts t
  rw [← Cert.KernelIdeal.Entry.V_feats m c]
  show V m c main_v4 (((cfg0.win 0).blk t).view.emb (ix2 p r)) = V m c main_v4 (ix2 p r)
  refine congrArg _ (funext fun a => Fin.ext ?_)
  match a with
  | ⟨0, _⟩ => show win0_0.index t (0 : Fin 2) * 256 + 1 * p.val = p.val; rw [f1]; omega
  | ⟨1, _⟩ => show win0_0.index t (1 : Fin 2) * 512 + 1 * r.val = r.val; rw [f2]; omega

/-- The labels column: row p holds label p. -/
theorem labels_at (c : Dev nD) (t : Fin cfg0.N) (p : Fin 256) :
    iblk m c 2 t (ix2 p (0 : Fin 1)) = ((m ((c : Thread nD τ).loc main_arg3)) : S256.Idx → BitVec 32) (ix1 p) := by
  obtain ⟨f0, f1, f2, f3, f4, f5, f6, f7⟩ := grid_facts t
  rw [← Cert.KernelIdeal.Entry.V_labels m c p]
  show V m c main_v10 (((cfg0.win 2).blk t).view.emb (ix2 p (0 : Fin 1))) = V m c main_v10 (ix2 p (0 : Fin 1))
  refine congrArg _ (funext fun a => Fin.ext ?_)
  match a with
  | ⟨0, _⟩ => show win0_2.index t (0 : Fin 2) * 256 + 1 * p.val = p.val; rw [f3]; omega
  | ⟨1, _⟩ => show win0_2.index t (1 : Fin 2) * 1 + 1 * 0 = 0; rw [f4]

/-- The margins column is the reference's clipped margins. -/
theorem margin_at (c : Dev nD) (t : Fin cfg0.N) (p : Fin 256) :
    iblk m c 3 t (ix2 p (0 : Fin 1)) = val_main_v16 (F := Ideal) (m ((c : Thread nD τ).loc main_arg2)) (ix2 p (0 : Fin 1)) := by
  obtain ⟨f0, f1, f2, f3, f4, f5, f6, f7⟩ := grid_facts t
  rw [← Cert.KernelIdeal.Entry.V_margin m c]
  show V m c main_v9 (((cfg0.win 3).blk t).view.emb (ix2 p (0 : Fin 1))) = V m c main_v9 (ix2 p (0 : Fin 1))
  refine congrArg _ (funext fun a => Fin.ext ?_)
  match a with
  | ⟨0, _⟩ => show win0_3.index t (0 : Fin 2) * 256 + 1 * p.val = p.val; rw [f5]; omega
  | ⟨1, _⟩ => show win0_3.index t (1 : Fin 2) * 1 + 1 * 0 = 0; rw [f6]

/-- Column j of the weight tile, if the fetch filled it, is column 4096·t + j of the weight array. -/
theorem weight_at (c : Dev nD) (t : Fin cfg0.N) (r : Fin 512) (j : Fin 4096) (hj : j.val < min 4096 (100000 - 4096 * t.val)) :
    ktile m c t (ix2 r j) = ((m ((c : Thread nD τ).loc main_arg1)) : S512x100000.Idx → EReal) (ix2 r (⟨4096 * t.val + j.val, by have := t.isLt; omega⟩ : Fin 100000)) := by
  obtain ⟨f0, f1, f2, f3, f4, f5, f6, g0, g1, g2, g3⟩ := grid_facts t
  have hm : (cfg0.win 1).moved (cfg0.grid.coords t) (ix2 r j) = true :=
    ((cfg0.win 1).moved_iff _ _).mpr fun a => by
      match a with
      | ⟨0, _⟩ => show r.val < win0_1.xsize (grid0.coords t) (0 : Fin 2); rw [g2]; exact r.isLt
      | ⟨1, _⟩ => show j.val < win0_1.xsize (grid0.coords t) (1 : Fin 2); rw [g3]; exact hj
  unfold ktile Window.fill
  rw [dif_pos hm, ← V_main_arg1 m c]
  show V m c main_arg1 (((cfg0.win 1).blk t).view.emb _) = V m c main_arg1 _
  refine congrArg _ (funext fun a => Fin.ext ?_)
  match a with
  | ⟨0, _⟩ => show win0_1.index t (0 : Fin 2) * 512 + 1 * r.val = r.val; rw [g0]; omega
  | ⟨1, _⟩ => show win0_1.index t (1 : Fin 2) * 4096 + 1 * j.val = 4096 * t.val + j.val; rw [g1]; omega

variable (hfin : ∀ (c : Dev nD) (i : S512x100000.Idx), ∃ x : ℝ, ((m ((c : Thread nD τ).loc main_arg1)) : S512x100000.Idx → EReal) i = (x : EReal))
include hfin

/-! ## Result window 4 -/

/-- What point `t` writes back is its block of the reference's result. -/
theorem flushed4_eq (c : Dev nD) (t : Fin cfg0.N) :
    (dats m 0 c).flushed 4 t = ((cfg0.win 4).blk t).view.read (Elt Ideal) (val_main_v19 (F := Ideal) (m ((c : Thread nD τ).loc main_arg0)) (m ((c : Thread nD τ).loc main_arg1))) := by
  show (cfg0.win 4).cut (grid0.coords t) ((dats m 0 c).after 4 t) = _
  rw [after0_4]
  funext y
  obtain ⟨f0, f1, f2, f3, f4, f5, f6, f7⟩ := grid_facts t
  obtain ⟨g0, g1, g2, g3⟩ := (out_facts t).1
  have hy0 : (y 0).val < 256 := Nat.lt_of_lt_of_eq (y 0).isLt g2
  have hy1 : (y 1).val < min 4096 (100000 - 4096 * t.val) := Nat.lt_of_lt_of_eq (y 1).isLt g3
  have ht : t.val < 25 := t.isLt
  have hx : (cfg0.win 4).xinj (grid0.coords t) y = ix2 (⟨(y 0).val, hy0⟩ : Fin 256) (⟨(y 1).val, by omega⟩ : Fin 4096) :=
    funext fun a => Fin.ext (by match a with | ⟨0, _⟩ => rfl | ⟨1, _⟩ => rfl)
  have he : ((cfg0.win 4).blk t).view.emb y = ix2 (⟨(y 0).val, hy0⟩ : Fin 256) (⟨4096 * t.val + (y 1).val, by omega⟩ : Fin 100000) :=
    funext fun a => Fin.ext (by
      match a with
      | ⟨0, _⟩ => show win0_4.index t (0 : Fin 2) * 256 + 1 * (y 0).val = (y 0).val; rw [g0]; omega
      | ⟨1, _⟩ => show win0_4.index t (1 : Fin 2) * 4096 + 1 * (y 1).val = 4096 * t.val + (y 1).val; rw [g1]; omega)
  show cosTile m c t ((cfg0.win 4).xinj (grid0.coords t) y) = val_main_v19 (F := Ideal) (m ((c : Thread nD τ).loc main_arg0)) (m ((c : Thread nD τ).loc main_arg1)) (((cfg0.win 4).blk t).view.emb y)
  rw [hx, he]
  exact Cert.Bridge.cos_bridge (ktile m c t) (iblk m c 0 t) (m ((c : Thread nD τ).loc main_arg0)) (m ((c : Thread nD τ).loc main_arg1)) (⟨(y 0).val, hy0⟩ : Fin 256) (⟨(y 1).val, by omega⟩ : Fin 4096) (⟨4096 * t.val + (y 1).val, by omega⟩ : Fin 100000) (fun r => feats_at m c t _ r) (fun r => weight_at m c t r ⟨(y 1).val, by omega⟩ (by omega)) (fun r => hfin c _)

omit hfin in
/-- An index of the array is in point `t`'s block iff each coordinate is in the block's range, cut at the array's end. -/
theorem mem_blk4 (t : Fin cfg0.N) (i : S256x100000.Idx) :
    i ∈ ((cfg0.win 4).blk t).view.set ↔ ∀ a : Fin 2, win0_4.index t a * S256x4096.size a ≤ (i a).val
      ∧ (i a).val < win0_4.index t a * S256x4096.size a + win0_4.xsize (grid0.coords t) a := by
  show i ∈ ((View.whole main_v11_0).slice (win0_4.rect t)).set ↔ _
  rw [View.set_slice_whole, Rect.mem_set_unit]
  exact Iff.rfl

omit hfin in
/-- Every index of the array is in some point's block: column q is in block q / 4096. -/
theorem cover4 (i : S256x100000.Idx) : ∃ t : Fin cfg0.N, (cfg0.win 4).flush t = true ∧ i ∈ ((cfg0.win 4).blk t).view.set := by
  have hi0 : (i 0).val < 256 := (i 0).isLt
  have hi1 : (i 1).val < 100000 := (i 1).isLt
  refine ⟨⟨(i 1).val / 4096, by show (i 1).val / 4096 < 25; omega⟩, flush0_4 _, ?_⟩
  rw [mem_blk4]
  obtain ⟨g0, g1, g2, g3⟩ := (out_facts ⟨(i 1).val / 4096, by show (i 1).val / 4096 < 25; omega⟩).1
  intro a
  match a with
  | ⟨0, _⟩ =>
    show win0_4.index _ (0 : Fin 2) * 256 ≤ (i 0).val ∧ (i 0).val < win0_4.index _ (0 : Fin 2) * 256 + win0_4.xsize _ (0 : Fin 2)
    rw [g0, g2]; omega
  | ⟨1, _⟩ =>
    show win0_4.index _ (1 : Fin 2) * 4096 ≤ (i 1).val ∧ (i 1).val < win0_4.index _ (1 : Fin 2) * 4096 + win0_4.xsize _ (1 : Fin 2)
    rw [g1, g3]
    show (i 1).val / 4096 * 4096 ≤ (i 1).val ∧ (i 1).val < (i 1).val / 4096 * 4096 + min 4096 (100000 - 4096 * ((i 1).val / 4096))
    omega

/-- The array after the run is the reference's result. -/
theorem final4 (c : Dev nD) : (dats m 0 c).arrAt 4 cfg0.N = val_main_v19 (F := Ideal) (m ((c : Thread nD τ).loc main_arg0)) (m ((c : Thread nD τ).loc main_arg1)) :=
  (dats m 0 c).arrAt_eq_of_cover 4 _ (fun t _ => flushed4_eq m hfin c t) (cover4)

/-! ## Result window 5 -/

/-- What point `t` writes back is its block of the reference's result. -/
theorem flushed5_eq (c : Dev nD) (t : Fin cfg0.N) :
    (dats m 0 c).flushed 5 t = ((cfg0.win 5).blk t).view.read (Elt Ideal) (val_main_v24 (F := Ideal) (m ((c : Thread nD τ).loc main_arg0)) (m ((c : Thread nD τ).loc main_arg1)) (m ((c : Thread nD τ).loc main_arg2)) (m ((c : Thread nD τ).loc main_arg3))) := by
  show (cfg0.win 5).cut (grid0.coords t) ((dats m 0 c).after 5 t) = _
  rw [after0_5]
  funext y
  obtain ⟨f0, f1, f2, f3, f4, f5, f6, f7⟩ := grid_facts t
  obtain ⟨g0, g1, g2, g3⟩ := (out_facts t).2.1
  have hy0 : (y 0).val < 256 := Nat.lt_of_lt_of_eq (y 0).isLt g2
  have hy1 : (y 1).val < min 4096 (100000 - 4096 * t.val) := Nat.lt_of_lt_of_eq (y 1).isLt g3
  have ht : t.val < 25 := t.isLt
  have hx : (cfg0.win 5).xinj (grid0.coords t) y = ix2 (⟨(y 0).val, hy0⟩ : Fin 256) (⟨(y 1).val, by omega⟩ : Fin 4096) :=
    funext fun a => Fin.ext (by match a with | ⟨0, _⟩ => rfl | ⟨1, _⟩ => rfl)
  have he : ((cfg0.win 5).blk t).view.emb y = ix2 (⟨(y 0).val, hy0⟩ : Fin 256) (⟨4096 * t.val + (y 1).val, by omega⟩ : Fin 100000) :=
    funext fun a => Fin.ext (by
      match a with
      | ⟨0, _⟩ => show win0_5.index t (0 : Fin 2) * 256 + 1 * (y 0).val = (y 0).val; rw [g0]; omega
      | ⟨1, _⟩ => show win0_5.index t (1 : Fin 2) * 4096 + 1 * (y 1).val = 4096 * t.val + (y 1).val; rw [g1]; omega)
  show logitTile m c t ((cfg0.win 5).xinj (grid0.coords t) y) = val_main_v24 (F := Ideal) (m ((c : Thread nD τ).loc main_arg0)) (m ((c : Thread nD τ).loc main_arg1)) (m ((c : Thread nD τ).loc main_arg2)) (m ((c : Thread nD τ).loc main_arg3)) (((cfg0.win 5).blk t).view.emb y)
  rw [hx, he]
  exact Cert.Bridge.logit_bridge (cfg0.grid.coords t) (ktile m c t) (iblk m c 0 t) (iblk m c 2 t) (iblk m c 3 t) (m ((c : Thread nD τ).loc main_arg0)) (m ((c : Thread nD τ).loc main_arg1)) (m ((c : Thread nD τ).loc main_arg2)) (m ((c : Thread nD τ).loc main_arg3)) (⟨(y 0).val, hy0⟩ : Fin 256) (⟨(y 1).val, by omega⟩ : Fin 4096) (⟨4096 * t.val + (y 1).val, by omega⟩ : Fin 100000) t.val ht f0 rfl (fun r => feats_at m c t _ r) (fun r => weight_at m c t r ⟨(y 1).val, by omega⟩ (by omega)) (labels_at m c t _) (margin_at m c t _) (fun r => hfin c _)

omit hfin in
/-- An index of the array is in point `t`'s block iff each coordinate is in the block's range, cut at the array's end. -/
theorem mem_blk5 (t : Fin cfg0.N) (i : S256x100000.Idx) :
    i ∈ ((cfg0.win 5).blk t).view.set ↔ ∀ a : Fin 2, win0_5.index t a * S256x4096.size a ≤ (i a).val
      ∧ (i a).val < win0_5.index t a * S256x4096.size a + win0_5.xsize (grid0.coords t) a := by
  show i ∈ ((View.whole main_v11_1).slice (win0_5.rect t)).set ↔ _
  rw [View.set_slice_whole, Rect.mem_set_unit]
  exact Iff.rfl

omit hfin in
/-- Every index of the array is in some point's block: column q is in block q / 4096. -/
theorem cover5 (i : S256x100000.Idx) : ∃ t : Fin cfg0.N, (cfg0.win 5).flush t = true ∧ i ∈ ((cfg0.win 5).blk t).view.set := by
  have hi0 : (i 0).val < 256 := (i 0).isLt
  have hi1 : (i 1).val < 100000 := (i 1).isLt
  refine ⟨⟨(i 1).val / 4096, by show (i 1).val / 4096 < 25; omega⟩, flush0_5 _, ?_⟩
  rw [mem_blk5]
  obtain ⟨g0, g1, g2, g3⟩ := (out_facts ⟨(i 1).val / 4096, by show (i 1).val / 4096 < 25; omega⟩).2.1
  intro a
  match a with
  | ⟨0, _⟩ =>
    show win0_5.index _ (0 : Fin 2) * 256 ≤ (i 0).val ∧ (i 0).val < win0_5.index _ (0 : Fin 2) * 256 + win0_5.xsize _ (0 : Fin 2)
    rw [g0, g2]; omega
  | ⟨1, _⟩ =>
    show win0_5.index _ (1 : Fin 2) * 4096 ≤ (i 1).val ∧ (i 1).val < win0_5.index _ (1 : Fin 2) * 4096 + win0_5.xsize _ (1 : Fin 2)
    rw [g1, g3]
    show (i 1).val / 4096 * 4096 ≤ (i 1).val ∧ (i 1).val < (i 1).val / 4096 * 4096 + min 4096 (100000 - 4096 * ((i 1).val / 4096))
    omega

/-- The array after the run is the reference's result. -/
theorem final5 (c : Dev nD) : (dats m 0 c).arrAt 5 cfg0.N = val_main_v24 (F := Ideal) (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed5_eq m hfin c t) (cover5)

/-! ## Result window 6 -/

/-- What point `t` writes back is its block of the reference's result. -/
theorem flushed6_eq (c : Dev nD) (t : Fin cfg0.N) :
    (dats m 0 c).flushed 6 t = ((cfg0.win 6).blk t).view.read (Elt Ideal) (val_main_v17 (F := Ideal) (m ((c : Thread nD τ).loc main_arg3))) := by
  show (cfg0.win 6).cut (grid0.coords t) ((dats m 0 c).after 6 t) = _
  rw [after0_6]
  funext y
  obtain ⟨f0, f1, f2, f3, f4, f5, f6, f7⟩ := grid_facts t
  obtain ⟨g0, g1, g2, g3⟩ := (out_facts t).2.2
  have hy0 : (y 0).val < 256 := Nat.lt_of_lt_of_eq (y 0).isLt g2
  have hy1 : (y 1).val < min 4096 (100000 - 4096 * t.val) := Nat.lt_of_lt_of_eq (y 1).isLt g3
  have ht : t.val < 25 := t.isLt
  have hx : (cfg0.win 6).xinj (grid0.coords t) y = ix2 (⟨(y 0).val, hy0⟩ : Fin 256) (⟨(y 1).val, by omega⟩ : Fin 4096) :=
    funext fun a => Fin.ext (by match a with | ⟨0, _⟩ => rfl | ⟨1, _⟩ => rfl)
  have he : ((cfg0.win 6).blk t).view.emb y = ix2 (⟨(y 0).val, hy0⟩ : Fin 256) (⟨4096 * t.val + (y 1).val, by omega⟩ : Fin 100000) :=
    funext fun a => Fin.ext (by
      match a with
      | ⟨0, _⟩ => show win0_6.index t (0 : Fin 2) * 256 + 1 * (y 0).val = (y 0).val; rw [g0]; omega
      | ⟨1, _⟩ => show win0_6.index t (1 : Fin 2) * 4096 + 1 * (y 1).val = 4096 * t.val + (y 1).val; rw [g1]; omega)
  show hotTile m c t ((cfg0.win 6).xinj (grid0.coords t) y) = val_main_v17 (F := Ideal) (m ((c : Thread nD τ).loc main_arg3)) (((cfg0.win 6).blk t).view.emb y)
  rw [hx, he]
  exact Cert.Bridge.hot_bridge (cfg0.grid.coords t) (iblk m c 2 t) (m ((c : Thread nD τ).loc main_arg3)) (⟨(y 0).val, hy0⟩ : Fin 256) (⟨(y 1).val, by omega⟩ : Fin 4096) (⟨4096 * t.val + (y 1).val, by omega⟩ : Fin 100000) t.val ht f0 rfl (labels_at m c t _)

omit hfin in
/-- An index of the array is in point `t`'s block iff each coordinate is in the block's range, cut at the array's end. -/
theorem mem_blk6 (t : Fin cfg0.N) (i : S256x100000.Idx) :
    i ∈ ((cfg0.win 6).blk t).view.set ↔ ∀ a : Fin 2, win0_6.index t a * S256x4096.size a ≤ (i a).val
      ∧ (i a).val < win0_6.index t a * S256x4096.size a + win0_6.xsize (grid0.coords t) a := by
  show i ∈ ((View.whole main_v11_2).slice (win0_6.rect t)).set ↔ _
  rw [View.set_slice_whole, Rect.mem_set_unit]
  exact Iff.rfl

omit hfin in
/-- Every index of the array is in some point's block: column q is in block q / 4096. -/
theorem cover6 (i : S256x100000.Idx) : ∃ t : Fin cfg0.N, (cfg0.win 6).flush t = true ∧ i ∈ ((cfg0.win 6).blk t).view.set := by
  have hi0 : (i 0).val < 256 := (i 0).isLt
  have hi1 : (i 1).val < 100000 := (i 1).isLt
  refine ⟨⟨(i 1).val / 4096, by show (i 1).val / 4096 < 25; omega⟩, flush0_6 _, ?_⟩
  rw [mem_blk6]
  obtain ⟨g0, g1, g2, g3⟩ := (out_facts ⟨(i 1).val / 4096, by show (i 1).val / 4096 < 25; omega⟩).2.2
  intro a
  match a with
  | ⟨0, _⟩ =>
    show win0_6.index _ (0 : Fin 2) * 256 ≤ (i 0).val ∧ (i 0).val < win0_6.index _ (0 : Fin 2) * 256 + win0_6.xsize _ (0 : Fin 2)
    rw [g0, g2]; omega
  | ⟨1, _⟩ =>
    show win0_6.index _ (1 : Fin 2) * 4096 ≤ (i 1).val ∧ (i 1).val < win0_6.index _ (1 : Fin 2) * 4096 + win0_6.xsize _ (1 : Fin 2)
    rw [g1, g3]
    show (i 1).val / 4096 * 4096 ≤ (i 1).val ∧ (i 1).val < (i 1).val / 4096 * 4096 + min 4096 (100000 - 4096 * ((i 1).val / 4096))
    omega

/-- The array after the run is the reference's result. -/
theorem final6 (c : Dev nD) : (dats m 0 c).arrAt 6 cfg0.N = val_main_v17 (F := Ideal) (m ((c : Thread nD τ).loc main_arg3)) :=
  (dats m 0 c).arrAt_eq_of_cover 6 _ (fun t _ => flushed6_eq m hfin c t) (cover6)

/-! ## The run, read -/

/-- Every weakly fair execution of @main terminates with the four results at the reference's terms of the arguments
    and the arguments unchanged. -/
theorem run : θ_run defs (onTc (τ := τ) (main (F := Ideal))) ⟨m, fun _ => 0, ρ⟩ fun r => ∀ c : Dev nD,
      r.2.mem ((c.tc : Thread nD τ).loc main_v11_0) = val_main_v19 (F := Ideal) (m ((c : Thread nD τ).loc main_arg0)) (m ((c : Thread nD τ).loc main_arg1))
      ∧ r.2.mem ((c.tc : Thread nD τ).loc main_v11_1) = val_main_v24 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_v0) = val_main_v0 (F := Ideal) (m ((c : Thread nD τ).loc main_arg0))
      ∧ r.2.mem ((c.tc : Thread nD τ).loc main_v11_2) = val_main_v17 (F := Ideal) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans (final4 m hfin c), ((h c).1 5).trans (final5 m hfin c),
      ((h c).2 main_v0 (Pipeline.mem_restRefs_of main_v0 (by decide) (by decide))).trans (Cert.KernelIdeal.Entry.V_norms m c),
      ((h c).1 6).trans (final6 m hfin c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Final

end
-- ==== Proof.Finite.lean ====
/-
  The precondition read at one weight: every float input is finite, so every entry of the weight array is a real
  number. The precondition is a conjunction of three "all entries are below +∞ in absolute value" tests, one per float
  argument; the second is the weight array's, and an extended real whose absolute value is below +∞ is a real.
-/
import proofs.«145052_j16200616640758_2_alg».proof.Defs
import Idealize.ShloMosaic.Lib.ReduceAll
import Idealize.ShloMosaic.Lib.Affine
import Idealize.ShloMosaic.Lib.ValueIdx
import Idealize.ShloMosaic.Lib.IdealHost

set_option maxRecDepth 16384

noncomputable section

namespace Cert.Finite

open Idealize.ShloMosaic Idealize.ShloMosaic.ValueIdx

instance : Subsingleton Cert.Pre_finite_inputs.S_.Idx := ⟨fun a b => funext fun d => d.elim0⟩

/-- An extended real whose absolute value compares below +∞ is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have h' : Ideal.cmp .olt (max x (-x)) (Ideal.ofBits .f32 0x7F800000#32) = 1#1 := h
  have hinf : Ideal.ofBits .f32 0x7F800000#32 = ⊤ := by simp [Ideal.ofBits, Ideal.ieee]
  rw [hinf] at h'
  induction x using EReal.rec with
  | bot => simp [Ideal.cmp] at h'
  | top => simp [Ideal.cmp] at h'
  | coe r => exact ⟨r, rfl⟩

/-- The printed precondition, all ones, makes every weight a real number. -/
theorem weights_real_fn [Cert.Pre_finite_inputs.Facts] (a0 : FVec Ideal Cert.Pre_finite_inputs.S256x512 .f32)
    (a1 : FVec Ideal Cert.Pre_finite_inputs.S512x100000 .f32) (a2 : FVec Ideal Cert.Pre_finite_inputs.S256x1 .f32)
    (a3 : IVec Cert.Pre_finite_inputs.S256 32)
    (h : Cert.Pre_finite_inputs.fn (F := Ideal) a0 a1 a2 a3 = fun _ => 1#1) (i : Cert.Pre_finite_inputs.S512x100000.Idx) :
    ∃ x : ℝ, a1 i = (x : EReal) := by
  have h0 := congrFun h ix0
  dsimp only [Cert.Pre_finite_inputs.fn] at h0
  have h1 := (IntOp.andi_eq_one.mp h0).1
  have h2 := (IntOp.andi_eq_one.mp h1).2
  have h3 := Host.reduce_andi_all _ _ _ _ _ h2 i
  simp only [cmpf_apply, broadcastInDim_scalar_apply, constant_apply] at h3
  exact real_of_abs_lt _ h3

end Cert.Finite

end
-- ==== Proof.lean ====
/- The proof of `Cert.Claim`: the kernel computes, over the extended reals, what the reference computes.

   Both programs normalize the features' rows, clip the margins and read the labels by the same host operations. The
   kernel then streams the weight array in 25 tiles of 4096 columns (the last one overhanging the array by 2400 columns,
   which the launch neither reads into the results nor writes back) and, per tile, scales the inner products by the
   reciprocal of each column's guarded norm; the reference divides every weight by its column's guarded norm before the
   product. Under the precondition the weights are real numbers, the guarded norm of a column is a positive real, and
   the two arrangements agree entry by entry (Proof/Bridge.lean over Proof/LibGuardedNorm.lean); the indicator and the logits follow
   (a comparison bit read signed or unsigned is the same number; a margin logit's two spellings agree on reals).

   The frames: the word-level kernel's by the launch with the result windows left unnamed (Proof/KernelFrame.lean), the
   idealized kernel's from the run that names them (Proof/IdealRun.lean), the reference's from its run. No rewrite was
   applied when the kernel was idealized, so the second program is the first read at the exact instance. -/
import proofs.«145052_j16200616640758_2_alg».proof.Defs
import proofs.«145052_j16200616640758_2_alg».proof.Proof.Gen.Kernel
import proofs.«145052_j16200616640758_2_alg».proof.Proof.Gen.KernelIdeal
import proofs.«145052_j16200616640758_2_alg».proof.Proof.Gen.ReferenceIdeal
import proofs.«145052_j16200616640758_2_alg».proof.Proof.Gen.Pre_finite_inputs
import proofs.«145052_j16200616640758_2_alg».proof.Proof.Gen.ReferenceIdeal.Run
import proofs.«145052_j16200616640758_2_alg».proof.Proof.Gen.ReferenceIdeal.Read
import proofs.«145052_j16200616640758_2_alg».proof.Proof.KernelFrame
import proofs.«145052_j16200616640758_2_alg».proof.Proof.IdealRun
import proofs.«145052_j16200616640758_2_alg».proof.Proof.Final
import proofs.«145052_j16200616640758_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Frame.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2.2.2.2) (Cert.ReferenceIdeal.Value.run (F := Ideal) m ρ)

/-- From memories that agree on the arguments, the kernel's four results (by the launch's write-backs and the host
    operations before it) and the reference's (by its run) are the same terms of the arguments. -/
theorem algebraic : Cert.algebraic_KernelIdeal_ReferenceIdeal := by
  intro m ρ m' ρ' hpre hagree
  have hfin : ∀ (c : Dev Cert.KernelIdeal.nD) (i : Cert.KernelIdeal.S512x100000.Idx),
      ∃ x : ℝ, (m ((c.tc : Thread Cert.KernelIdeal.nD Cert.KernelIdeal.τ).loc Cert.KernelIdeal.main_arg1) : Cert.KernelIdeal.S512x100000.Idx → EReal) i = (x : EReal) :=
    fun c i => Cert.Finite.weights_real_fn _ _ _ _ (hpre c) i
  refine ⟨_, _, _, _, Cert.KernelIdeal.Final.run m ρ hfin, ?_⟩
  refine (θ_run Cert.ReferenceIdeal.defs _ _).mono (fun _ h c => ⟨?_, ?_, ?_, ?_, (h c).2.2.2.2⟩)
    (Cert.ReferenceIdeal.Value.run (F := Ideal) m' ρ')
  · rw [(h c).1, Cert.ReferenceIdeal.Read.val_main_v19_eq, (hagree c).1, (hagree c).2.1]
  · rw [(h c).2.1, Cert.ReferenceIdeal.Read.val_main_v24_eq, (hagree c).1, (hagree c).2.1, (hagree c).2.2.1, (hagree c).2.2.2]
  · rw [(h c).2.2.1, Cert.ReferenceIdeal.Read.val_main_v0_eq, (hagree c).1]
  · rw [(h c).2.2.2.1, Cert.ReferenceIdeal.Read.val_main_v17_eq, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
